-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S131072x2 : Shape := ⟨2, ![131072, 2]⟩
abbrev S1x131072x256 : Shape := ⟨3, ![1, 131072, 256]⟩
abbrev S256x66 : Shape := ⟨2, ![256, 66]⟩
abbrev S256 : Shape := ⟨1, ![256]⟩
abbrev S768x256 : Shape := ⟨2, ![768, 256]⟩
abbrev S768 : Shape := ⟨1, ![768]⟩
abbrev S256x256 : Shape := ⟨2, ![256, 256]⟩
abbrev S64x256 : Shape := ⟨2, ![64, 256]⟩
abbrev S64 : Shape := ⟨1, ![64]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S131072x2 : S_.BroadcastsInDim S131072x2 (![] : Fin 0 → Fin S131072x2.rank)
  reducesTo_S131072x2_S_d0_1 : S131072x2.ReducesTo [0, 1] S_
  bcast_S_S1x131072x256 : S_.BroadcastsInDim S1x131072x256 (![] : Fin 0 → Fin S1x131072x256.rank)
  reducesTo_S1x131072x256_S_d0_1_2 : S1x131072x256.ReducesTo [0, 1, 2] S_
  bcast_S_S256x66 : S_.BroadcastsInDim S256x66 (![] : Fin 0 → Fin S256x66.rank)
  reducesTo_S256x66_S_d0_1 : S256x66.ReducesTo [0, 1] S_
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S256x256 : S_.BroadcastsInDim S256x256 (![] : Fin 0 → Fin S256x256.rank)
  reducesTo_S256x256_S_d0_1 : S256x256.ReducesTo [0, 1] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg11 : FVec F S64x256 .f32) (main_arg12 : FVec F S64 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S64x256 .f32 := Host.absf main_arg11
  let main_cst_20 : FVec F S_ .f32 := constant S_ .f32 0x7F800000#32
  let main_v55 : FVec F S64x256 .f32 := broadcastInDim S64x256 ![] bcast_S_S64x256 main_cst_20
  let main_v56 : IVec S64x256 1 := cmpf .olt main_v54 main_v55
  let main_c_21 : IVec S_ 1 := constantI S_ 1 1#1
  let main_v57 : IVec S_ 1 := (fun x v => Host.reduce IntOp.andi x v reducesTo_S64x256_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg7 : FVec F S768 .f32) (main_arg8 : FVec F S768 .f32) (main_arg9 : FVec F S256x256 .f32) (main_arg10 : FVec F S256 .f32) (main_arg11 : FVec F S64x256 .f32) (main_arg12 : FVec F S64 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S256 .f32) (main_arg5 : FVec F S768x256 .f32) (main_arg6 : FVec F S768x256 .f32) (main_arg7 : FVec F S768 .f32) (main_arg8 : FVec F S768 .f32) (main_arg9 : FVec F S256x256 .f32) (main_arg10 : FVec F S256 .f32) (main_arg11 : FVec F S64x256 .f32) (main_arg12 : FVec F S64 .f32) (main_v13 : IVec S_ 1) (main_v16 : IVec S256x66 1) : IVec S_ 1 :=
  let main_c_5 : IVec S_ 1 := constantI S_ 1 1#1
  let main_v17 : IVec S_ 1 := (fun x v => Host.reduce IntOp.andi x v reducesTo_S256x66_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S768x256 .f32 := Host.absf main_arg5
  let main_cst_8 : FVec F S_ .f32 := constant S_ .f32 0x7F800000#32
  let main_v25 : FVec F S768x256 .f32 := broadcastInDim S768x256 ![] bcast_S_S768x256 main_cst_8
  let main_v26 : IVec S768x256 1 := cmpf .olt main_v24 main_v25
  let main_c_9 : IVec S_ 1 := constantI S_ 1 1#1
  let main_v27 : IVec S_ 1 := (fun x v => Host.reduce IntOp.andi x v reducesTo_S768x256_S_d0_1 h_S_) main_v26 main_c_9
  let main_v28 : IVec S_ 1 := andi main_v23 main_v27
  let main_v29 : FVec F S768x256 .f32 := Host.absf main_arg6
  let main_cst_10 : FVec F S_ .f32 := constant S_ .f32 0x7F800000#32
  let main_v30 : FVec F S768x256 .f32 := broadcastInDim S768x256 ![] bcast_S_S768x256 main_cst_10
  let main_v31 : IVec S768x256 1 := cmpf .olt main_v29 main_v30
  let main_c_11 : IVec S_ 1 := constantI S_ 1 1#1
  let main_v32 : IVec S_ 1 := (fun x v => Host.reduce IntOp.andi x v reducesTo_S768x256_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S131072x64 .f32) (main_arg1 : FVec F S131072x2 .f32) (main_arg2 : FVec F S1x131072x256 .f32) (main_arg3 : FVec F S256x66 .f32) (main_arg4 : FVec F S256 .f32) (main_arg5 : FVec F S768x256 .f32) (main_arg6 : FVec F S768x256 .f32) (main_arg7 : FVec F S768 .f32) (main_arg8 : FVec F S768 .f32) (main_arg9 : FVec F S256x256 .f32) (main_arg10 : FVec F S256 .f32) (main_arg11 : FVec F S64x256 .f32) (main_arg12 : FVec F S64 .f32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S131072x2 .f32 := Host.absf main_arg1
  let main_cst_0 : FVec F S_ .f32 := constant S_ .f32 0x7F800000#32
  let main_v5 : FVec F S131072x2 .f32 := broadcastInDim S131072x2 ![] bcast_S_S131072x2 main_cst_0
  let main_v6 : IVec S131072x2 1 := cmpf .olt main_v4 main_v5
  let main_c_1 : IVec S_ 1 := constantI S_ 1 1#1
  let main_v7 : IVec S_ 1 := (fun x v => Host.reduce IntOp.andi x v reducesTo_S131072x2_S_d0_1 h_S_) main_v6 main_c_1
  let main_v8 : IVec S_ 1 := andi main_v3 main_v7
  let main_v9 : FVec F S1x131072x256 .f32 := Host.absf main_arg2
  let main_cst_2 : FVec F S_ .f32 := constant S_ .f32 0x7F800000#32
  let main_v10 : FVec F S1x131072x256 .f32 := broadcastInDim S1x131072x256 ![] bcast_S_S1x131072x256 main_cst_2
  let main_v11 : IVec S1x131072x256 1 := cmpf .olt main_v9 main_v10
  let main_c_3 : IVec S_ 1 := constantI S_ 1 1#1
  let main_v12 : IVec S_ 1 := (fun x v => Host.reduce IntOp.andi x v reducesTo_S1x131072x256_S_d0_1_2 h_S_) main_v11 main_c_3
  let main_v13 : IVec S_ 1 := andi main_v8 main_v12
  let main_v14 : FVec F S256x66 .f32 := Host.absf main_arg3
  let main_cst_4 : FVec F S_ .f32 := constant S_ .f32 0x7F800000#32
  let main_v15 : FVec F S256x66 .f32 := broadcastInDim S256x66 ![] bcast_S_S256x66 main_cst_4
  let main_v16 : IVec S256x66 1 := cmpf .olt main_v14 main_v15
  fn_part1 (F := F) main_arg4 main_arg5 main_arg6 main_arg7 main_arg8 main_arg9 main_arg10 main_arg11 main_arg12 main_v13 main_v16
-- ==== Kernel.lean ====
abbrev S131072x64 : Shape := ⟨2, ![131072, 64]⟩
abbrev S131072x2 : Shape := ⟨2, ![131072, 2]⟩
abbrev S1x131072x256 : Shape := ⟨3, ![1, 131072, 256]⟩
abbrev S256x66 : Shape := ⟨2, ![256, 66]⟩
abbrev S256 : Shape := ⟨1, ![256]⟩
abbrev S768x256 : Shape := ⟨2, ![768, 256]⟩
abbrev S768 : Shape := ⟨1, ![768]⟩
abbrev S256x256 : Shape := ⟨2, ![256, 256]⟩
abbrev S64x256 : Shape := ⟨2, ![64, 256]⟩
abbrev S64 : Shape := ⟨1, ![64]⟩
abbrev S256x64 : Shape := ⟨2, ![256, 64]⟩
abbrev S256x2 : Shape := ⟨2, ![256, 2]⟩
abbrev S2x256 : Shape := ⟨2, ![2, 256]⟩
abbrev S256x768 : Shape := ⟨2, ![256, 768]⟩
abbrev S1x256 : Shape := ⟨2, ![1, 256]⟩
abbrev S1x768 : Shape := ⟨2, ![1, 768]⟩
abbrev S1x64 : Shape := ⟨2, ![1, 64]⟩
abbrev S131072x256 : Shape := ⟨2, ![131072, 256]⟩
abbrev S1024x64 : Shape := ⟨2, ![1024, 64]⟩
abbrev S1024x2 : Shape := ⟨2, ![1024, 2]⟩
abbrev S1024x256 : Shape := ⟨2, ![1024, 256]⟩
abbrev S1024x768 : Shape := ⟨2, ![1024, 768]⟩

abbrev nBuf : Space → Nat
  | .hbm => 30
  | .vmem => 21
  | .smem => 0
  | _ => 0

abbrev bufTy : (tb : Table) → Fin (tcTables nBuf tb) → BufTy
  | .hbm, ⟨0, _⟩ => ⟨S131072x64, .f32⟩
  | .hbm, ⟨1, _⟩ => ⟨S131072x2, .f32⟩
  | .hbm, ⟨2, _⟩ => ⟨S1x131072x256, .f32⟩
  | .hbm, ⟨3, _⟩ => ⟨S256x66, .f32⟩
  | .hbm, ⟨4, _⟩ => ⟨S256, .f32⟩
  | .hbm, ⟨5, _⟩ => ⟨S768x256, .f32⟩
  | .hbm, ⟨6, _⟩ => ⟨S768x256, .f32⟩
  | .hbm, ⟨7, _⟩ => ⟨S768, .f32⟩
  | .hbm, ⟨8, _⟩ => ⟨S768, .f32⟩
  | .hbm, ⟨9, _⟩ => ⟨S256x256, .f32⟩
  | .hbm, ⟨10, _⟩ => ⟨S256, .f32⟩
  | .hbm, ⟨11, _⟩ => ⟨S64x256, .f32⟩
  | .hbm, ⟨12, _⟩ => ⟨S64, .f32⟩
  | .hbm, ⟨13, _⟩ => ⟨S256x64, .f32⟩
  | .hbm, ⟨14, _⟩ => ⟨S64x256, .f32⟩
  | .hbm, ⟨15, _⟩ => ⟨S256x2, .f32⟩
  | .hbm, ⟨16, _⟩ => ⟨S2x256, .f32⟩
  | .hbm, ⟨17, _⟩ => ⟨S256x768, .f32⟩
  | .hbm, ⟨18, _⟩ => ⟨S256x768, .f32⟩
  | .hbm, ⟨19, _⟩ => ⟨S256x256, .f32⟩
  | .hbm, ⟨20, _⟩ => ⟨S256x64, .f32⟩
  | .hbm, ⟨21, _⟩ => ⟨S1x256, .f32⟩
  | .hbm, ⟨22, _⟩ => ⟨S1x768, .f32⟩
  | .hbm, ⟨23, _⟩ => ⟨S1x768, .f32⟩
  | .hbm, ⟨24, _⟩ => ⟨S1x256, .f32⟩
  | .hbm, ⟨25, _⟩ => ⟨S1x64, .f32⟩
  | .hbm, ⟨26, _⟩ => ⟨S131072x256, .f32⟩
  | .hbm, ⟨27, _⟩ => ⟨S131072x64, .f32⟩
  | .hbm, ⟨28, _⟩ => ⟨S131072x256, .f32⟩
  | .hbm, ⟨29, _⟩ => ⟨S1x131072x256, .f32⟩
  | .local _ .vmem, ⟨0, _⟩ => ⟨S1024x64, .f32⟩
  | .local _ .vmem, ⟨1, _⟩ => ⟨S1024x64, .f32⟩
  | .local _ .vmem, ⟨2, _⟩ => ⟨S1024x2, .f32⟩
  | .local _ .vmem, ⟨3, _⟩ => ⟨S1024x2, .f32⟩
  | .local _ .vmem, ⟨4, _⟩ => ⟨S1024x256, .f32⟩
  | .local _ .vmem, ⟨5, _⟩ => ⟨S1024x256, .f32⟩
  | .local _ .vmem, ⟨6, _⟩ => ⟨S64x256, .f32⟩
  | .local _ .vmem, ⟨7, _⟩ => ⟨S2x256, .f32⟩
  | .local _ .vmem, ⟨8, _⟩ => ⟨S1x256, .f32⟩
  | .local _ .vmem, ⟨9, _⟩ => ⟨S256x768, .f32⟩
  | .local _ .vmem, ⟨10, _⟩ => ⟨S256x768, .f32⟩
  | .local _ .vmem, ⟨11, _⟩ => ⟨S1x768, .f32⟩
  | .local _ .vmem, ⟨12, _⟩ => ⟨S1x768, .f32⟩
  | .local _ .vmem, ⟨13, _⟩ => ⟨S256x256, .f32⟩
  | .local _ .vmem, ⟨14, _⟩ => ⟨S1x256, .f32⟩
  | .local _ .vmem, ⟨15, _⟩ => ⟨S256x64, .f32⟩
  | .local _ .vmem, ⟨16, _⟩ => ⟨S1x64, .f32⟩
  | .local _ .vmem, ⟨17, _⟩ => ⟨S1024x64, .f32⟩
  | .local _ .vmem, ⟨18, _⟩ => ⟨S1024x64, .f32⟩
  | .local _ .vmem, ⟨19, _⟩ => ⟨S1024x256, .f32⟩
  | .local _ .vmem, ⟨20, _⟩ => ⟨S1024x256, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  slices_S256x66_S256x64_0_0 : S256x66.Slices ![0, 0] S256x64
  transposes_S256x64_S64x256_1_0 : S256x64.Transposes [1, 0] S64x256
  slices_S256x66_S256x2_0_64 : S256x66.Slices ![0, 64] S256x2
  transposes_S256x2_S2x256_1_0 : S256x2.Transposes [1, 0] S2x256
  transposes_S768x256_S256x768_1_0 : S768x256.Transposes [1, 0] S256x768
  transposes_S256x256_S256x256_1_0 : S256x256.Transposes [1, 0] S256x256
  transposes_S64x256_S256x64_1_0 : S64x256.Transposes [1, 0] S256x64
  shapeCasts_S256_S1x256 : S256.ShapeCasts S1x256
  shapeCasts_S768_S1x768 : S768.ShapeCasts S1x768
  shapeCasts_S64_S1x64 : S64.ShapeCasts S1x64
  shapeCasts_S1x131072x256_S131072x256 : S1x131072x256.ShapeCasts S131072x256
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  inb_S1024x2_S1024x2_0_0 : ∀ a, (![0, 0] : Fin 2 → Nat) a + S1024x2.size a ≤ S1024x2.size a
  h_S1024x2 : 0 < S1024x2.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S2x256_S2x256_0_0 : ∀ a, (![0, 0] : Fin 2 → Nat) a + S2x256.size a ≤ S2x256.size a
  h_S2x256 : 0 < S2x256.numel
  shapeCasts_S2x256_S2x256 : S2x256.ShapeCasts S2x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  bcast_S131072x256_S1x131072x256_1_2 : S131072x256.BroadcastsInDim S1x131072x256 (![1, 2] : Fin 2 → Fin S1x131072x256.rank)
  dot_S1024x64_S64x256_S1024x256_1_0_0_1_n_n_wf : DotDims.WF S1024x64 S64x256 S1024x256 [1] [0] [0] [1] [] []
  dot_S1024x2_S2x256_S1024x256_1_0_0_1_n_n_wf : DotDims.WF S1024x2 S2x256 S1024x256 [1] [0] [0] [1] [] []
  dot_S1024x256_S256x768_S1024x768_1_0_0_1_n_n_wf : DotDims.WF S1024x256 S256x768 S1024x768 [1] [0] [0] [1] [] []
  dot_S1024x256_S256x256_S1024x256_1_0_0_1_n_n_wf : DotDims.WF S1024x256 S256x256 S1024x256 [1] [0] [0] [1] [] []
  dot_S1024x256_S256x64_S1024x64_1_0_0_1_n_n_wf : DotDims.WF S1024x256 S256x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S131072x64.size a
  hwx0_0 : ∀ i : grid0.Coords, EltTy.bits .f32 = 32 ∨ (Rect.block (s := S131072x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2.size a ≤ S131072x2.size a
  hwx0_1 : ∀ i : grid0.Coords, EltTy.bits .f32 = 32 ∨ (Rect.block (s := S131072x2) S1024x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S131072x256.size a
  hwx0_2 : ∀ i : grid0.Coords, EltTy.bits .f32 = 32 ∨ (Rect.block (s := S131072x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x256.size a ≤ S2x256.size a
  hwx0_4 : ∀ i : grid0.Coords, EltTy.bits .f32 = 32 ∨ (Rect.block (s := S2x256) S2x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x768.size a ≤ S256x768.size a
  hwx0_6 : ∀ i : grid0.Coords, EltTy.bits .f32 = 32 ∨ (Rect.block (s := S256x768) S256x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x768.size a ≤ S256x768.size a
  hwx0_7 : ∀ i : grid0.Coords, EltTy.bits .f32 = 32 ∨ (Rect.block (s := S256x768) S256x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x768.size a ≤ S1x768.size a
  hwx0_8 : ∀ i : grid0.Coords, EltTy.bits .f32 = 32 ∨ (Rect.block (s := S1x768) S1x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x768.size a ≤ S1x768.size a
  hwx0_9 : ∀ i : grid0.Coords, EltTy.bits .f32 = 32 ∨ (Rect.block (s := S1x768) S1x768.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .f32 = 32 ∨ (Rect.block (s := S256x256) S256x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x64.size a ≤ S256x64.size a
  hwx0_12 : ∀ i : grid0.Coords, EltTy.bits .f32 = 32 ∨ (Rect.block (s := S256x64) S256x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x64.size a ≤ S131072x64.size a
  hwx0_14 : ∀ i : grid0.Coords, EltTy.bits .f32 = 32 ∨ (Rect.block (s := S131072x64) S1024x64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x256.size a ≤ S131072x256.size a
  hwx0_15 : ∀ i : grid0.Coords, EltTy.bits .f32 = 32 ∨ (Rect.block (s := S131072x256) S1024x256.size (cc0_transform_15 i) (hinb0_15 i)).WholeWords (EltTy.packing .f32)

variable [Facts₀]

def dot_S1024x64_S64x256_S1024x256_1_0_0_1_n_n : DotDims S1024x64 S64x256 S1024x256 where
  lhsContracting := [1]
  rhsContracting := [0]
  lhsNonContracting := [0]
  rhsNonContracting := [1]
  lhsBatch := []
  rhsBatch := []
  wf := dot_S1024x64_S64x256_S1024x256_1_0_0_1_n_n_wf
def dot_S1024x2_S2x256_S1024x256_1_0_0_1_n_n : DotDims S1024x2 S2x256 S1024x256 where
  lhsContracting := [1]
  rhsContracting := [0]
  lhsNonContracting := [0]
  rhsNonContracting := [1]
  lhsBatch := []
  rhsBatch := []
  wf := dot_S1024x2_S2x256_S1024x256_1_0_0_1_n_n_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S256x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S256x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S256x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v14_0) S1024x64.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v14_1) S1024x256.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S131072x64 : Shape := ⟨2, ![131072, 64]⟩
abbrev S131072x2 : Shape := ⟨2, ![131072, 2]⟩
abbrev S1x131072x256 : Shape := ⟨3, ![1, 131072, 256]⟩
abbrev S256x66 : Shape := ⟨2, ![256, 66]⟩
abbrev S256 : Shape := ⟨1, ![256]⟩
abbrev S768x256 : Shape := ⟨2, ![768, 256]⟩
abbrev S768 : Shape := ⟨1, ![768]⟩
abbrev S256x256 : Shape := ⟨2, ![256, 256]⟩
abbrev S64x256 : Shape := ⟨2, ![64, 256]⟩
abbrev S64 : Shape := ⟨1, ![64]⟩
abbrev S131072x66 : Shape := ⟨2, ![131072, 66]⟩
abbrev S66x256 : Shape := ⟨2, ![66, 256]⟩
abbrev S131072x256 : Shape := ⟨2, ![131072, 256]⟩
abbrev S1x256 : Shape := ⟨2, ![1, 256]⟩
abbrev S_ : Shape := ⟨0, ![]⟩
abbrev S256x768 : Shape := ⟨2, ![256, 768]⟩
abbrev S131072x768 : Shape := ⟨2, ![131072, 768]⟩
abbrev S1x768 : Shape := ⟨2, ![1, 768]⟩
abbrev S256x64 : Shape := ⟨2, ![256, 64]⟩
abbrev S1x64 : Shape := ⟨2, ![1, 64]⟩

abbrev nBuf : Space → Nat
  | .hbm => 80
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S131072x2, .f32⟩
  | .hbm, ⟨2, _⟩ => ⟨S1x131072x256, .f32⟩
  | .hbm, ⟨3, _⟩ => ⟨S256x66, .f32⟩
  | .hbm, ⟨4, _⟩ => ⟨S256, .f32⟩
  | .hbm, ⟨5, _⟩ => ⟨S768x256, .f32⟩
  | .hbm, ⟨6, _⟩ => ⟨S768x256, .f32⟩
  | .hbm, ⟨7, _⟩ => ⟨S768, .f32⟩
  | .hbm, ⟨8, _⟩ => ⟨S768, .f32⟩
  | .hbm, ⟨9, _⟩ => ⟨S256x256, .f32⟩
  | .hbm, ⟨10, _⟩ => ⟨S256, .f32⟩
  | .hbm, ⟨11, _⟩ => ⟨S64x256, .f32⟩
  | .hbm, ⟨12, _⟩ => ⟨S64, .f32⟩
  | .hbm, ⟨13, _⟩ => ⟨S131072x66, .f32⟩
  | .hbm, ⟨14, _⟩ => ⟨S66x256, .f32⟩
  | .hbm, ⟨15, _⟩ => ⟨S131072x256, .f32⟩
  | .hbm, ⟨16, _⟩ => ⟨S1x256, .f32⟩
  | .hbm, ⟨17, _⟩ => ⟨S131072x256, .f32⟩
  | .hbm, ⟨18, _⟩ => ⟨S131072x256, .f32⟩
  | .hbm, ⟨19, _⟩ => ⟨S_, .f32⟩
  | .hbm, ⟨20, _⟩ => ⟨S131072x256, .f32⟩
  | .hbm, ⟨21, _⟩ => ⟨S131072x256, .f32⟩
  | .hbm, ⟨22, _⟩ => ⟨S131072x256, .f32⟩
  | .hbm, ⟨23, _⟩ => ⟨S256x768, .f32⟩
  | .hbm, ⟨24, _⟩ => ⟨S131072x768, .f32⟩
  | .hbm, ⟨25, _⟩ => ⟨S1x768, .f32⟩
  | .hbm, ⟨26, _⟩ => ⟨S131072x768, .f32⟩
  | .hbm, ⟨27, _⟩ => ⟨S131072x768, .f32⟩
  | .hbm, ⟨28, _⟩ => ⟨S256x768, .f32⟩
  | .hbm, ⟨29, _⟩ => ⟨S131072x768, .f32⟩
  | .hbm, ⟨30, _⟩ => ⟨S1x768, .f32⟩
  | .hbm, ⟨31, _⟩ => ⟨S131072x768, .f32⟩
  | .hbm, ⟨32, _⟩ => ⟨S131072x768, .f32⟩
  | .hbm, ⟨33, _⟩ => ⟨S131072x256, .f32⟩
  | .hbm, ⟨34, _⟩ => ⟨S131072x256, .f32⟩
  | .hbm, ⟨35, _⟩ => ⟨S131072x256, .f32⟩
  | .hbm, ⟨36, _⟩ => ⟨S131072x256, .f32⟩
  | .hbm, ⟨37, _⟩ => ⟨S131072x256, .f32⟩
  | .hbm, ⟨38, _⟩ => ⟨S131072x256, .f32⟩
  | .hbm, ⟨39, _⟩ => ⟨S131072x256, .f32⟩
  | .hbm, ⟨40, _⟩ => ⟨S131072x256, .f32⟩
  | .hbm, ⟨41, _⟩ => ⟨S131072x256, .f32⟩
  | .hbm, ⟨42, _⟩ => ⟨S_, .f32⟩
  | .hbm, ⟨43, _⟩ => ⟨S131072x256, .f32⟩
  | .hbm, ⟨44, _⟩ => ⟨S131072x256, .f32⟩
  | .hbm, ⟨45, _⟩ => ⟨S_, .f32⟩
  | .hbm, ⟨46, _⟩ => ⟨S131072x256, .f32⟩
  | .hbm, ⟨47, _⟩ => ⟨S131072x256, .f32⟩
  | .hbm, ⟨48, _⟩ => ⟨S131072x256, .f32⟩
  | .hbm, ⟨49, _⟩ => ⟨S131072x256, .f32⟩
  | .hbm, ⟨50, _⟩ => ⟨S131072x256, .f32⟩
  | .hbm, ⟨51, _⟩ => ⟨S_, .f32⟩
  | .hbm, ⟨52, _⟩ => ⟨S131072x256, .f32⟩
  | .hbm, ⟨53, _⟩ => ⟨S131072x256, .f32⟩
  | .hbm, ⟨54, _⟩ => ⟨S_, .f32⟩
  | .hbm, ⟨55, _⟩ => ⟨S131072x256, .f32⟩
  | .hbm, ⟨56, _⟩ => ⟨S131072x256, .f32⟩
  | .hbm, ⟨57, _⟩ => ⟨S131072x256, .f32⟩
  | .hbm, ⟨58, _⟩ => ⟨S131072x256, .f32⟩
  | .hbm, ⟨59, _⟩ => ⟨S131072x256, .f32⟩
  | .hbm, ⟨60, _⟩ => ⟨S_, .f32⟩
  | .hbm, ⟨61, _⟩ => ⟨S131072x256, .f32⟩
  | .hbm, ⟨62, _⟩ => ⟨S131072x256, .f32⟩
  | .hbm, ⟨63, _⟩ => ⟨S131072x256, .f32⟩
  | .hbm, ⟨64, _⟩ => ⟨S131072x256, .f32⟩
  | .hbm, ⟨65, _⟩ => ⟨S131072x256, .f32⟩
  | .hbm, ⟨66, _⟩ => ⟨S256x256, .f32⟩
  | .hbm, ⟨67, _⟩ => ⟨S131072x256, .f32⟩
  | .hbm, ⟨68, _⟩ => ⟨S1x256, .f32⟩
  | .hbm, ⟨69, _⟩ => ⟨S131072x256, .f32⟩
  | .hbm, ⟨70, _⟩ => ⟨S131072x256, .f32⟩
  | .hbm, ⟨71, _⟩ => ⟨S_, .f32⟩
  | .hbm, ⟨72, _⟩ => ⟨S131072x256, .f32⟩
  | .hbm, ⟨73, _⟩ => ⟨S131072x256, .f32⟩
  | .hbm, ⟨74, _⟩ => ⟨S256x64, .f32⟩
  | .hbm, ⟨75, _⟩ => ⟨S131072x64, .f32⟩
  | .hbm, ⟨76, _⟩ => ⟨S1x64, .f32⟩
  | .hbm, ⟨77, _⟩ => ⟨S131072x64, .f32⟩
  | .hbm, ⟨78, _⟩ => ⟨S131072x64, .f32⟩
  | .hbm, ⟨79, _⟩ => ⟨S1x131072x256, .f32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call0_cst : Ref sig .tc := ⟨.hbm, 19, rfl⟩
abbrev main_call0_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst : Ref sig .tc := ⟨.hbm, 42, rfl⟩
abbrev main_v27 : Ref sig .tc := ⟨.hbm, 43, rfl⟩
abbrev main_v28 : Ref sig .tc := ⟨.hbm, 44, rfl⟩
abbrev main_cst_0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_1 : Ref sig .tc := ⟨.hbm, 51, rfl⟩
abbrev main_v34 : Ref sig .tc := ⟨.hbm, 52, rfl⟩
abbrev main_v35 : Ref sig .tc := ⟨.hbm, 53, rfl⟩
abbrev main_cst_2 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_3 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]

class Facts₀ : Prop where
  concatenates_S131072x64_S131072x2_S131072x66_d1 : Shape.Concatenates [S131072x64, S131072x2] S131072x66 1
  transposes_S256x66_S66x256_1_0 : S256x66.Transposes [1, 0] S66x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  shapeCasts_S1x131072x256_S131072x256 : S1x131072x256.ShapeCasts S131072x256
  transposes_S768x256_S256x768_1_0 : S768x256.Transposes [1, 0] S256x768
  bcast_S768_S1x768_1 : S768.BroadcastsInDim S1x768 (![1] : Fin 1 → Fin S1x768.rank)
  bcast_S1x768_S131072x768_0_1 : S1x768.BroadcastsInDim S131072x768 (![0, 1] : Fin 2 → Fin S131072x768.rank)
  slices_S131072x768_S131072x256_0_0 : S131072x768.Slices ![0, 0] S131072x256
  slices_S131072x768_S131072x256_0_256 : S131072x768.Slices ![0, 256] S131072x256
  slices_S131072x768_S131072x256_0_512 : S131072x768.Slices ![0, 512] S131072x256
  transposes_S256x256_S256x256_1_0 : S256x256.Transposes [1, 0] S256x256
  transposes_S64x256_S256x64_1_0 : S64x256.Transposes [1, 0] S256x64
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S131072x256_S1x131072x256_1_2 : S131072x256.BroadcastsInDim S1x131072x256 (![1, 2] : Fin 2 → Fin S1x131072x256.rank)
  dot_S131072x66_S66x256_S131072x256_1_0_0_1_n_n_wf : DotDims.WF S131072x66 S66x256 S131072x256 [1] [0] [0] [1] [] []
  dot_S131072x256_S256x768_S131072x768_1_0_0_1_n_n_wf : DotDims.WF S131072x256 S256x768 S131072x768 [1] [0] [0] [1] [] []
  dot_S131072x256_S256x256_S131072x256_1_0_0_1_n_n_wf : DotDims.WF S131072x256 S256x256 S131072x256 [1] [0] [0] [1] [] []
  dot_S131072x256_S256x64_S131072x64_1_0_0_1_n_n_wf : DotDims.WF S131072x256 S256x64 S131072x64 [1] [0] [0] [1] [] []

variable [Facts₀]

def dot_S131072x66_S66x256_S131072x256_1_0_0_1_n_n : DotDims S131072x66 S66x256 S131072x256 where
  lhsContracting := [1]
  rhsContracting := [0]
  lhsNonContracting := [0]
  rhsNonContracting := [1]
  lhsBatch := []
  rhsBatch := []
  wf := dot_S131072x66_S66x256_S131072x256_1_0_0_1_n_n_wf
def dot_S131072x256_S256x768_S131072x768_1_0_0_1_n_n : DotDims S131072x256 S256x768 S131072x768 where
  lhsContracting := [1]
  rhsContracting := [0]
  lhsNonContracting := [0]
  rhsNonContracting := [1]
  lhsBatch := []
  rhsBatch := []
  wf := dot_S131072x256_S256x768_S131072x768_1_0_0_1_n_n_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x256_S256x64_S131072x64_1_0_0_1_n_n : DotDims S131072x256 S256x64 S131072x64 where
  lhsContracting := [1]
  rhsContracting := [0]
  lhsNonContracting := [0]
  rhsNonContracting := [1]
  lhsBatch := []
  rhsBatch := []
  wf := dot_S131072x256_S256x64_S131072x64_1_0_0_1_n_n_wf

class Facts : Prop extends Facts₀ where

variable [Facts]
-- ==== Proof.Spec.lean ====
/-
  One step of a gated recurrent cell between two dense layers, written row by row on the extended reals.

  For one row of the batch — a latent row z (64 entries), an action row a (2 entries) and a hidden row h (256 entries) —
    x      = max(z·Wz + a·Wa + b_in, 0)                    the input projection; Wz and Wa are the two column blocks of W_in
    gi     = x·W_ih + b_ih,   gh = h·W_hh + b_hh           the two gate pre-activations, 768 = 3 · 256 entries each
    r      = σ(gi₀ + gh₀),  u = σ(gi₁ + gh₁),  n = tanh(gi₂ + r · gh₂)      (block c of a 768-row is its entries 256c … 256c+255)
    h'     = (1 − u) · n + u · h                           the new hidden row
    z'     = max(h'·W_o1 + b_o1, 0)·W_o2 + b_o2            the output projection
  Every weight is taken here as the matrix the row is multiplied by, entry (k, j) = contraction position k, output column j.
  Then the two results as functions of the thirteen argument arrays, index by index: row i₀ of each batch array, and each
  weight array W[out, in] read transposed, (k, j) ↦ W(j, k).
-/
import Idealize.ShloMosaic.PureOps.Ideal
import Idealize.ShloMosaic.Lib.ValueIdx
import Mathlib.Algebra.BigOperators.Fin

noncomputable section

namespace GruStep

open Idealize.ShloMosaic Idealize.ShloMosaic.ValueIdx

/-- A dense layer on one row: entry j of x·w + b. -/
def lin {K N : ℕ} (x : Fin K → EReal) (w : Fin K → Fin N → EReal) (b : Fin N → EReal) (j : Fin N) : EReal :=
  (∑ k : Fin K, x k * w k j) + b j

/-- The extended reals the two float words 0.0 and 1.0 denote. -/
def zero32 : EReal := Ideal.ofBits .f32 0x00000000#32
def one32 : EReal := Ideal.ofBits .f32 0x3F800000#32

/-- The rectifier on one row. -/
def relu {N : ℕ} (x : Fin N → EReal) (j : Fin N) : EReal := max (x j) zero32

/-- The input projection with the weight split into its latent block and its action block. -/
def inproj (z : Fin 64 → EReal) (a : Fin 2 → EReal) (wz : Fin 64 → Fin 256 → EReal) (wa : Fin 2 → Fin 256 → EReal)
    (b : Fin 256 → EReal) (j : Fin 256) : EReal :=
  max (((∑ k : Fin 64, z k * wz k j) + (∑ k : Fin 2, a k * wa k j)) + b j) zero32

/-- Column j of block 0, 1, 2 of a row of 768 = 3 · 256 gate pre-activations. -/
def col0 (j : Fin 256) : Fin 768 := ⟨j.val, by have := j.isLt; omega⟩
def col1 (j : Fin 256) : Fin 768 := ⟨256 + j.val, by have := j.isLt; omega⟩
def col2 (j : Fin 256) : Fin 768 := ⟨512 + j.val, by have := j.isLt; omega⟩

/-- The logistic function and the hyperbolic tangent on the extended reals, as the float operations read there. -/
def sigm (x : EReal) : EReal := FloatOps.logistic (F := Ideal) (φ := .f32) x
def th (x : EReal) : EReal := FloatOps.tanh (F := Ideal) (φ := .f32) x

/-- The gated update of one hidden row from the two rows of gate pre-activations. -/
def cell (gi gh : Fin 768 → EReal) (h : Fin 256 → EReal) (j : Fin 256) : EReal :=
  (one32 - sigm (gi (col1 j) + gh (col1 j))) * th (gi (col2 j) + sigm (gi (col0 j) + gh (col0 j)) * gh (col2 j))
    + sigm (gi (col1 j) + gh (col1 j)) * h j

/-- The new hidden row. -/
def hnew (z : Fin 64 → EReal) (a : Fin 2 → EReal) (h : Fin 256 → EReal)
    (wz : Fin 64 → Fin 256 → EReal) (wa : Fin 2 → Fin 256 → EReal) (bin : Fin 256 → EReal)
    (wih : Fin 256 → Fin 768 → EReal) (bih : Fin 768 → EReal) (whh : Fin 256 → Fin 768 → EReal) (bhh : Fin 768 → EReal) :
    Fin 256 → EReal :=
  cell (lin (inproj z a wz wa bin) wih bih) (lin h whh bhh) h

/-- The next latent row. -/
def znext (z : Fin 64 → EReal) (a : Fin 2 → EReal) (h : Fin 256 → EReal)
    (wz : Fin 64 → Fin 256 → EReal) (wa : Fin 2 → Fin 256 → EReal) (bin : Fin 256 → EReal)
    (wih : Fin 256 → Fin 768 → EReal) (bih : Fin 768 → EReal) (whh : Fin 256 → Fin 768 → EReal) (bhh : Fin 768 → EReal)
    (wo1 : Fin 256 → Fin 256 → EReal) (bo1 : Fin 256 → EReal) (wo2 : Fin 256 → Fin 64 → EReal) (bo2 : Fin 64 → EReal) :
    Fin 64 → EReal :=
  lin (relu (lin (hnew z a h wz wa bin wih bih whh bhh) wo1 bo1)) wo2 bo2

/-! ## The two results as functions of the argument arrays -/

abbrev SZ : Shape := ⟨2, ![131072, 64]⟩
abbrev SA : Shape := ⟨2, ![131072, 2]⟩
abbrev SH3 : Shape := ⟨3, ![1, 131072, 256]⟩
abbrev SH : Shape := ⟨2, ![131072, 256]⟩
abbrev SWin : Shape := ⟨2, ![256, 66]⟩
abbrev SV256 : Shape := ⟨1, ![256]⟩
abbrev SWg : Shape := ⟨2, ![768, 256]⟩
abbrev SV768 : Shape := ⟨1, ![768]⟩
abbrev SWo1 : Shape := ⟨2, ![256, 256]⟩
abbrev SWo2 : Shape := ⟨2, ![64, 256]⟩
abbrev SV64 : Shape := ⟨1, ![64]⟩

/-- Position k of the latent block and of the action block among the 66 input columns of W_in. -/
def latc (k : Fin 64) : Fin 66 := ⟨k.val, by have := k.isLt; omega⟩
def actc (k : Fin 2) : Fin 66 := ⟨64 + k.val, by have := k.isLt; omega⟩

/-- The new hidden state, entry (row, column), from the argument arrays. -/
def Gh (x0 : SZ.Idx → EReal) (x1 : SA.Idx → EReal) (x2 : SH3.Idx → EReal) (x3 : SWin.Idx → EReal) (x4 : SV256.Idx → EReal)
    (x5 x6 : SWg.Idx → EReal) (x7 x8 : SV768.Idx → EReal) : SH.Idx → EReal := fun i =>
  hnew (fun k => x0 (ix2 (i 0) k)) (fun k => x1 (ix2 (i 0) k)) (fun k => x2 (ix3 (0 : Fin 1) (i 0) k))
    (fun k j => x3 (ix2 j (latc k))) (fun k j => x3 (ix2 j (actc k))) (fun j => x4 (ix1 j))
    (fun k q => x5 (ix2 q k)) (fun q => x7 (ix1 q)) (fun k q => x6 (ix2 q k)) (fun q => x8 (ix1 q)) (i 1)

/-- The next latent, entry (row, column), from the argument arrays. -/
def Gz (x0 : SZ.Idx → EReal) (x1 : SA.Idx → EReal) (x2 : SH3.Idx → EReal) (x3 : SWin.Idx → EReal) (x4 : SV256.Idx → EReal)
    (x5 x6 : SWg.Idx → EReal) (x7 x8 : SV768.Idx → EReal) (x9 : SWo1.Idx → EReal) (x10 : SV256.Idx → EReal)
    (x11 : SWo2.Idx → EReal) (x12 : SV64.Idx → EReal) : SZ.Idx → EReal := fun i =>
  znext (fun k => x0 (ix2 (i 0) k)) (fun k => x1 (ix2 (i 0) k)) (fun k => x2 (ix3 (0 : Fin 1) (i 0) k))
    (fun k j => x3 (ix2 j (latc k))) (fun k j => x3 (ix2 j (actc k))) (fun j => x4 (ix1 j))
    (fun k q => x5 (ix2 q k)) (fun q => x7 (ix1 q)) (fun k q => x6 (ix2 q k)) (fun q => x8 (ix1 q))
    (fun k j => x9 (ix2 j k)) (fun j => x10 (ix1 j)) (fun k j => x11 (ix2 j k)) (fun j => x12 (ix1 j)) (i 1)

/-- The float word of 1.0 denotes the real number one. -/
theorem one32_eq : one32 = 1 := by
  unfold one32
  simp [Ideal.ofBits, Ideal.ieee, -EReal.coe_mul]
  norm_num

end GruStep

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.LibDenseLayer.lean ====
/-
  A dense layer as a kernel body spells it, read at an index on the extended reals. The body narrows both operands of the
  matrix product to a shorter float format (the identity on the extended reals), multiplies into a zero accumulator and adds a
  bias held as a one-row matrix spread down the rows. At entry (r, j) that is the sum over the contraction position k of
  x(r, k) · w(k, j), plus b(0, j). The weight and the bias pass through a reshape to their own shape, which is the identity.
  Nothing here depends on a program: the product's dimension numbers enter through the hypothesis that they are those of a
  plain [M, K] × [K, N] product.
-/
import proofs.«169824_j35321811042564_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace DenseLayer

open Idealize.ShloMosaic Idealize.ShloMosaic.ValueIdx

variable {M K N : Nat}

/-- The product of a narrowed activation block with a narrowed, identically reshaped weight block, into the zero
    accumulator, at entry (r, j): the sum over k of x(r, k) · w(k, j). -/
theorem matmul_narrowed_apply (D : DotDims ⟨2, ![M, K]⟩ ⟨2, ![K, N]⟩ ⟨2, ![M, N]⟩) (hD : PlainDot.IsPlain D)
    (prec : Option ContractPrecision) (x : FVec Ideal ⟨2, ![M, K]⟩ .f32) (w : FVec Ideal ⟨2, ![K, N]⟩ .f32)
    (hw : (⟨2, ![K, N]⟩ : Shape).ShapeCasts ⟨2, ![K, N]⟩) (h1 h2 : FTy.bf16.bits < FTy.f32.bits) (r : Fin M) (j : Fin N) :
    matmul D prec (truncf .bf16 x h1) (truncf .bf16 (shapeCast ⟨2, ![K, N]⟩ w hw) h2)
        (constant (F := Ideal) ⟨2, ![M, N]⟩ .f32 0x00000000#32) (ix2 r j)
      = ∑ k : Fin K, x (ix2 r k) * w (ix2 k j) := by
  rw [shapeCast_self]
  exact PlainDot.matmul_zero_apply D hD prec (truncf .bf16 x h1) (truncf .bf16 w h2) r j

/-- A bias row, identically reshaped and spread down the rows, at entry (r, j): b(0, j). -/
theorem bias_row_apply {α : Type} (b : (⟨2, ![1, N]⟩ : Shape).Idx → α) (hb : (⟨2, ![1, N]⟩ : Shape).ShapeCasts ⟨2, ![1, N]⟩)
    (hbb : (⟨2, ![1, N]⟩ : Shape).Broadcasts ⟨2, ![M, N]⟩) (r : Fin M) (j : Fin N) :
    broadcastTo ⟨2, ![M, N]⟩ (shapeCast ⟨2, ![1, N]⟩ b hb) hbb (ix2 r j) = b (ix2 (0 : Fin 1) j) := by
  rw [shapeCast_self]
  exact broadcastTo_1b_ab_apply b hbb r j

/-- The whole layer at entry (r, j). -/
theorem dense_apply (D : DotDims ⟨2, ![M, K]⟩ ⟨2, ![K, N]⟩ ⟨2, ![M, N]⟩) (hD : PlainDot.IsPlain D)
    (prec : Option ContractPrecision) (x : FVec Ideal ⟨2, ![M, K]⟩ .f32) (w : FVec Ideal ⟨2, ![K, N]⟩ .f32)
    (b : FVec Ideal ⟨2, ![1, N]⟩ .f32)
    (hw : (⟨2, ![K, N]⟩ : Shape).ShapeCasts ⟨2, ![K, N]⟩) (h1 h2 : FTy.bf16.bits < FTy.f32.bits)
    (hb : (⟨2, ![1, N]⟩ : Shape).ShapeCasts ⟨2, ![1, N]⟩) (hbb : (⟨2, ![1, N]⟩ : Shape).Broadcasts ⟨2, ![M, N]⟩)
    (r : Fin M) (j : Fin N) :
    addf (matmul D prec (truncf .bf16 x h1) (truncf .bf16 (shapeCast ⟨2, ![K, N]⟩ w hw) h2)
        (constant (F := Ideal) ⟨2, ![M, N]⟩ .f32 0x00000000#32))
      (broadcastTo ⟨2, ![M, N]⟩ (shapeCast ⟨2, ![1, N]⟩ b hb) hbb) (ix2 r j)
      = (∑ k : Fin K, x (ix2 r k) * w (ix2 k j)) + b (ix2 (0 : Fin 1) j) := by
  rw [addf_apply, matmul_narrowed_apply D hD prec x w hw h1 h2 r j, bias_row_apply b hb hbb r j]

end DenseLayer

end
-- ==== Proof.KernelRows.lean ====
/-
  The body's arithmetic, read at one entry of its block. The body works on 1024 rows at a time and no row depends on
  another, so each stored value at (p, j) is the row-level specification applied to row p of the three batch blocks
  (latent, action, hidden) and to the weight blocks, each weight block being read as the matrix its row is multiplied by:
    • the gate pre-activations of the projected input, entry (p, q): a dense layer over the rectified input projection;
    • the raw hidden product, entry (p, q): the sum over k of h(p, k) · W_hh(k, q), its bias added later;
    • the new hidden row, entry (p, j): the gated update from columns j, 256 + j and 512 + j of the two gate rows;
    • the next latent, entry (p, j): two dense layers with a rectifier between, over the new hidden row.
-/
import proofs.«169824_j35321811042564_1_alg».proof.Proof.Gen.KernelIdeal.Skeleton
import proofs.«169824_j35321811042564_1_alg».proof.Proof.Spec
import proofs.«169824_j35321811042564_1_alg».proof.Proof.LibPlainDot
import proofs.«169824_j35321811042564_1_alg».proof.Proof.LibDenseLayer
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.ValueIdx GruStep
/-! ## The five matrix products of the body are plain [M, K] × [K, N] products -/

theorem plain_S1024x64_S64x256_S1024x256 : PlainDot.IsPlain dot_S1024x64_S64x256_S1024x256_1_0_0_1_n_n where
  rank := rfl
  size := rfl
  lhs0 := fun i q => by
    unfold DotDims.lhsIdx
    rw [dif_neg (show ¬(0 : Fin S1024x64.rank) ∈ dot_S1024x64_S64x256_S1024x256_1_0_0_1_n_n.lhsBatch by decide), dif_pos (show (0 : Fin S1024x64.rank) ∈ dot_S1024x64_S64x256_S1024x256_1_0_0_1_n_n.lhsNonContracting by decide)]
    rfl
  lhs1 := fun i q => dot_S1024x64_S64x256_S1024x256_1_0_0_1_n_n.lhsIdx_val_of_single rfl i q
  rhs0 := fun i q => dot_S1024x64_S64x256_S1024x256_1_0_0_1_n_n.rhsIdx_val_of_single rfl i q
  rhs1 := fun i q => by
    unfold DotDims.rhsIdx
    rw [dif_neg (show ¬(1 : Fin S64x256.rank) ∈ dot_S1024x64_S64x256_S1024x256_1_0_0_1_n_n.rhsBatch by decide), dif_pos (show (1 : Fin S64x256.rank) ∈ dot_S1024x64_S64x256_S1024x256_1_0_0_1_n_n.rhsNonContracting by decide)]
    rfl

theorem plain_S1024x2_S2x256_S1024x256 : PlainDot.IsPlain dot_S1024x2_S2x256_S1024x256_1_0_0_1_n_n where
  rank := rfl
  size := rfl
  lhs0 := fun i q => by
    unfold DotDims.lhsIdx
    rw [dif_neg (show ¬(0 : Fin S1024x2.rank) ∈ dot_S1024x2_S2x256_S1024x256_1_0_0_1_n_n.lhsBatch by decide), dif_pos (show (0 : Fin S1024x2.rank) ∈ dot_S1024x2_S2x256_S1024x256_1_0_0_1_n_n.lhsNonContracting by decide)]
    rfl
  lhs1 := fun i q => dot_S1024x2_S2x256_S1024x256_1_0_0_1_n_n.lhsIdx_val_of_single rfl i q
  rhs0 := fun i q => dot_S1024x2_S2x256_S1024x256_1_0_0_1_n_n.rhsIdx_val_of_single rfl i q
  rhs1 := fun i q => by
    unfold DotDims.rhsIdx
    rw [dif_neg (show ¬(1 : Fin S2x256.rank) ∈ dot_S1024x2_S2x256_S1024x256_1_0_0_1_n_n.rhsBatch by decide), dif_pos (show (1 : Fin S2x256.rank) ∈ dot_S1024x2_S2x256_S1024x256_1_0_0_1_n_n.rhsNonContracting by decide)]
    rfl

theorem plain_S1024x256_S256x768_S1024x768 : PlainDot.IsPlain dot_S1024x256_S256x768_S1024x768_1_0_0_1_n_n where
  rank := rfl
  size := rfl
  lhs0 := fun i q => by
    unfold DotDims.lhsIdx
    rw [dif_neg (show ¬(0 : Fin S1024x256.rank) ∈ dot_S1024x256_S256x768_S1024x768_1_0_0_1_n_n.lhsBatch by decide), dif_pos (show (0 : Fin S1024x256.rank) ∈ dot_S1024x256_S256x768_S1024x768_1_0_0_1_n_n.lhsNonContracting by decide)]
    rfl
  lhs1 := fun i q => dot_S1024x256_S256x768_S1024x768_1_0_0_1_n_n.lhsIdx_val_of_single rfl i q
  rhs0 := fun i q => dot_S1024x256_S256x768_S1024x768_1_0_0_1_n_n.rhsIdx_val_of_single rfl i q
  rhs1 := fun i q => by
    unfold DotDims.rhsIdx
    rw [dif_neg (show ¬(1 : Fin S256x768.rank) ∈ dot_S1024x256_S256x768_S1024x768_1_0_0_1_n_n.rhsBatch by decide), dif_pos (show (1 : Fin S256x768.rank) ∈ dot_S1024x256_S256x768_S1024x768_1_0_0_1_n_n.rhsNonContracting by decide)]
    rfl

theorem plain_S1024x256_S256x256_S1024x256 : PlainDot.IsPlain dot_S1024x256_S256x256_S1024x256_1_0_0_1_n_n where
  rank := rfl
  size := rfl
  lhs0 := fun i q => by
    unfold DotDims.lhsIdx
    rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
    rfl
  lhs1 := fun i q => dot_S1024x256_S256x256_S1024x256_1_0_0_1_n_n.lhsIdx_val_of_single rfl i q
  rhs0 := fun i q => dot_S1024x256_S256x256_S1024x256_1_0_0_1_n_n.rhsIdx_val_of_single rfl i q
  rhs1 := fun i q => by
    unfold DotDims.rhsIdx
    rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
    rfl

theorem plain_S1024x256_S256x64_S1024x64 : PlainDot.IsPlain dot_S1024x256_S256x64_S1024x64_1_0_0_1_n_n where
  rank := rfl
  size := rfl
  lhs0 := fun i q => by
    unfold DotDims.lhsIdx
    rw [dif_neg (show ¬(0 : Fin S1024x256.rank) ∈ dot_S1024x256_S256x64_S1024x64_1_0_0_1_n_n.lhsBatch by decide), dif_pos (show (0 : Fin S1024x256.rank) ∈ dot_S1024x256_S256x64_S1024x64_1_0_0_1_n_n.lhsNonContracting by decide)]
    rfl
  lhs1 := fun i q => dot_S1024x256_S256x64_S1024x64_1_0_0_1_n_n.lhsIdx_val_of_single rfl i q
  rhs0 := fun i q => dot_S1024x256_S256x64_S1024x64_1_0_0_1_n_n.rhsIdx_val_of_single rfl i q
  rhs1 := fun i q => by
    unfold DotDims.rhsIdx
    rw [dif_neg (show ¬(1 : Fin S256x64.rank) ∈ dot_S1024x256_S256x64_S1024x64_1_0_0_1_n_n.rhsBatch by decide), dif_pos (show (1 : Fin S256x64.rank) ∈ dot_S1024x256_S256x64_S1024x64_1_0_0_1_n_n.rhsNonContracting by decide)]
    rfl

/-! ## Pointwise pieces read at an index -/

theorem logistic_apply {s : Shape} (a : FVec Ideal s .f32) (i : s.Idx) : logistic a i = sigm (a i) := rfl
theorem tanh_apply {s : Shape} (a : FVec Ideal s .f32) (i : s.Idx) : tanh a i = th (a i) := rfl

/-- The three column blocks of a [1024, 768] value: entry (p, j) of block c is entry (p, 256c + j). -/
theorem block0_apply (X : FVec Ideal S1024x768 .f32) (h : S1024x768.Slices ![0, 0] S1024x256) (p : Fin 1024) (j : Fin 256) :
    extractStridedSlice S1024x256 ![0, 0] X h (ix2 p j) = X (ix2 p (col0 j)) :=
  slice2_axis1_apply 0 X h p j (col0 j) (by show j.val = 0 + j.val; omega)
theorem block1_apply (X : FVec Ideal S1024x768 .f32) (h : S1024x768.Slices ![0, 256] S1024x256) (p : Fin 1024) (j : Fin 256) :
    extractStridedSlice S1024x256 ![0, 256] X h (ix2 p j) = X (ix2 p (col1 j)) :=
  slice2_axis1_apply 256 X h p j (col1 j) rfl
theorem block2_apply (X : FVec Ideal S1024x768 .f32) (h : S1024x768.Slices ![0, 512] S1024x256) (p : Fin 1024) (j : Fin 256) :
    extractStridedSlice S1024x256 ![0, 512] X h (ix2 p j) = X (ix2 p (col2 j)) :=
  slice2_axis1_apply 512 X h p j (col2 j) rfl

/-! ## The payloads -/

/-- The hidden block passes through a reshape to its own shape. -/
theorem hidden_apply (v4 : Vec Ideal S1024x256 .f32) (i : S1024x256.Idx) : k0_pay1 (F := Ideal) v4 i = v4 i := by
  unfold k0_pay1
  rw [shapeCast_self]

/-- The gate pre-activations of the projected input at (p, q). -/
theorem gates_in_apply (v0 : Vec Ideal S1024x64 .f32) (v2 : Vec Ideal S1024x2 .f32) (v6 : Vec Ideal S64x256 .f32) (v9 : Vec Ideal S2x256 .f32)
    (v15 : Vec Ideal S1x256 .f32) (v21 : Vec Ideal S256x768 .f32) (v29 : Vec Ideal S1x768 .f32) (p : Fin 1024) (q : Fin 768) :
    k0_pay2 (F := Ideal) v0 v2 v6 v9 v15 v21 v29 (ix2 p q)
      = lin (inproj (fun k => v0 (ix2 p k)) (fun k => v2 (ix2 p k)) (fun k j => v6 (ix2 k j)) (fun k j => v9 (ix2 k j)) (fun j => v15 (ix2 (0 : Fin 1) j)))
          (fun k q => v21 (ix2 k q)) (fun q => v29 (ix2 (0 : Fin 1) q)) q := by
  unfold k0_pay2
  rw [DenseLayer.dense_apply _ plain_S1024x256_S256x768_S1024x768]
  simp only [maximumf_apply, addf_apply, broadcast_apply, DenseLayer.matmul_narrowed_apply _ plain_S1024x64_S64x256_S1024x256,
    DenseLayer.matmul_narrowed_apply _ plain_S1024x2_S2x256_S1024x256, DenseLayer.bias_row_apply]
  rfl

/-- The raw hidden product at (p, q). -/
theorem gates_hid_apply (v4 : Vec Ideal S1024x256 .f32) (v24 : Vec Ideal S256x768 .f32) (p : Fin 1024) (q : Fin 768) :
    k0_pay3 (F := Ideal) v4 v24 (ix2 p q) = ∑ k : Fin 256, v4 (ix2 p k) * v24 (ix2 k q) := by
  unfold k0_pay3
  rw [DenseLayer.matmul_narrowed_apply _ plain_S1024x256_S256x768_S1024x768]
  simp only [hidden_apply]

/-- The new hidden row at (p, j), from the two gate rows (the hidden one still without its bias) and the old hidden row. -/
theorem cell_apply (v5 : FVec Ideal S1024x256 .f32) (v32 v34 : FVec Ideal S1024x768 .f32) (v35 : Vec Ideal S1x768 .f32) (p : Fin 1024) (j : Fin 256) :
    k0_pay4 (F := Ideal) v5 v32 v34 v35 (ix2 p j)
      = cell (fun q => v32 (ix2 p q)) (fun q => v34 (ix2 p q) + v35 (ix2 (0 : Fin 1) q)) (fun j => v5 (ix2 p j)) j := by
  unfold k0_pay4
  simp only [addf_apply, mulf_apply, subf_apply, broadcast_apply, logistic_apply, tanh_apply, block0_apply, block1_apply, block2_apply,
    DenseLayer.bias_row_apply]
  rfl

/-- The next latent at (p, j), over the new hidden row. -/
theorem latent_apply (v5 : FVec Ideal S1024x256 .f32) (v32 v34 : FVec Ideal S1024x768 .f32) (v35 : Vec Ideal S1x768 .f32)
    (v57 : Vec Ideal S256x256 .f32) (v62 : Vec Ideal S1x256 .f32) (v68 : Vec Ideal S256x64 .f32) (v73 : Vec Ideal S1x64 .f32) (p : Fin 1024) (j : Fin 64) :
    k0_pay5 (F := Ideal) v5 v32 v34 v35 v57 v62 v68 v73 (ix2 p j)
      = lin (relu (lin (fun k => k0_pay4 (F := Ideal) v5 v32 v34 v35 (ix2 p k)) (fun k j => v57 (ix2 k j)) (fun j => v62 (ix2 (0 : Fin 1) j))))
          (fun k j => v68 (ix2 k j)) (fun j => v73 (ix2 (0 : Fin 1) j)) j := by
  unfold k0_pay5
  rw [DenseLayer.dense_apply _ plain_S1024x256_S256x64_S1024x64]
  simp only [maximumf_apply, broadcast_apply, DenseLayer.dense_apply _ plain_S1024x256_S256x256_S1024x256]
  rfl

/-! ## The two stored values, whole -/

/-- What the body stores to the hidden output, at (p, j): the specification's new hidden row of row p. -/
theorem stored_hidden_apply (x0 : Vec Ideal S1024x64 .f32) (x1 : Vec Ideal S1024x2 .f32) (x2 : Vec Ideal S1024x256 .f32) (x3 : Vec Ideal S64x256 .f32)
    (x4 : Vec Ideal S2x256 .f32) (x5 : Vec Ideal S1x256 .f32) (x6 x7 : Vec Ideal S256x768 .f32) (x8 x9 : Vec Ideal S1x768 .f32) (p : Fin 1024) (j : Fin 256) :
    k0_pay4 (F := Ideal) (k0_pay1 x2) (k0_pay2 x0 x1 x3 x4 x5 x6 x8) (k0_pay3 x2 x7) x9 (ix2 p j)
      = hnew (fun k => x0 (ix2 p k)) (fun k => x1 (ix2 p k)) (fun k => x2 (ix2 p k))
          (fun k j => x3 (ix2 k j)) (fun k j => x4 (ix2 k j)) (fun j => x5 (ix2 (0 : Fin 1) j))
          (fun k q => x6 (ix2 k q)) (fun q => x8 (ix2 (0 : Fin 1) q)) (fun k q => x7 (ix2 k q)) (fun q => x9 (ix2 (0 : Fin 1) q)) j := by
  rw [cell_apply]
  simp only [gates_in_apply, gates_hid_apply, hidden_apply]
  rfl

/-- What the body stores to the latent output, at (p, j): the specification's next latent row of row p. -/
theorem stored_latent_apply (x0 : Vec Ideal S1024x64 .f32) (x1 : Vec Ideal S1024x2 .f32) (x2 : Vec Ideal S1024x256 .f32) (x3 : Vec Ideal S64x256 .f32)
    (x4 : Vec Ideal S2x256 .f32) (x5 : Vec Ideal S1x256 .f32) (x6 x7 : Vec Ideal S256x768 .f32) (x8 x9 : Vec Ideal S1x768 .f32)
    (x10 : Vec Ideal S256x256 .f32) (x11 : Vec Ideal S1x256 .f32) (x12 : Vec Ideal S256x64 .f32) (x13 : Vec Ideal S1x64 .f32) (p : Fin 1024) (j : Fin 64) :
    k0_pay5 (F := Ideal) (k0_pay1 x2) (k0_pay2 x0 x1 x3 x4 x5 x6 x8) (k0_pay3 x2 x7) x9 x10 x11 x12 x13 (ix2 p j)
      = znext (fun k => x0 (ix2 p k)) (fun k => x1 (ix2 p k)) (fun k => x2 (ix2 p k))
          (fun k j => x3 (ix2 k j)) (fun k j => x4 (ix2 k j)) (fun j => x5 (ix2 (0 : Fin 1) j))
          (fun k q => x6 (ix2 k q)) (fun q => x8 (ix2 (0 : Fin 1) q)) (fun k q => x7 (ix2 k q)) (fun q => x9 (ix2 (0 : Fin 1) q))
          (fun k j => x10 (ix2 k j)) (fun j => x11 (ix2 (0 : Fin 1) j)) (fun k j => x12 (ix2 k j)) (fun j => x13 (ix2 (0 : Fin 1) j)) j := by
  rw [latent_apply]
  simp only [stored_hidden_apply]
  rfl

end Cert.KernelIdeal.Rows

end
-- ==== Proof.KernelHost.lean ====
/-
  The arrays the region's windows find, where a host operation made them from an argument: each weight matrix W[out, in]
  transposed (the two column blocks of W_in cut out first), each bias vector recast as a one-row matrix, and the hidden state
  with its leading unit axis dropped. Read at an index, each is one entry of the argument it came from:
    transposed weight (k, j) ↦ W(j, k);  latent block of W_in (k, j) ↦ W_in(j, k);  action block (k, j) ↦ W_in(j, 64 + k);
    bias row (0, j) ↦ b(j);  hidden (r, k) ↦ hidden(0, r, k).
-/
import proofs.«169824_j35321811042564_1_alg».proof.Proof.Gen.KernelIdeal.Frame
import proofs.«169824_j35321811042564_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.ShloMosaic.ValueIdx Idealize.SL.Sem Idealize.ShloMosaic.StableHlo GruStep

variable (m : (ℓ : Loc nD τ sig) → Buf (Elt Ideal) ℓ)

/-! ## The host operations before the region, as values -/

theorem V_v1 (c : Dev nD) : (V m c main_v1 : S64x256.Idx → EReal)
    = transpose S64x256 [1, 0] (extractStridedSlice S256x64 ![0, 0] (m ((c : Thread nD τ).loc main_arg3)) slices_S256x66_S256x64_0_0) transposes_S256x64_S64x256_1_0 := by
  show StableHlo.after hostOps0 (fun b => m (c, b)) (Proc.devRef .tc main_v1) = _
  after_results
theorem V_v3 (c : Dev nD) : (V m c main_v3 : S2x256.Idx → EReal)
    = transpose S2x256 [1, 0] (extractStridedSlice S256x2 ![0, 64] (m ((c : Thread nD τ).loc main_arg3)) slices_S256x66_S256x2_0_64) transposes_S256x2_S2x256_1_0 := by
  show StableHlo.after hostOps0 (fun b => m (c, b)) (Proc.devRef .tc main_v3) = _
  after_results
theorem V_v4 (c : Dev nD) : (V m c main_v4 : S256x768.Idx → EReal) = transpose S256x768 [1, 0] (m ((c : Thread nD τ).loc main_arg5)) transposes_S768x256_S256x768_1_0 := by
  show StableHlo.after hostOps0 (fun b => m (c, b)) (Proc.devRef .tc main_v4) = _
  after_results
theorem V_v5 (c : Dev nD) : (V m c main_v5 : S256x768.Idx → EReal) = transpose S256x768 [1, 0] (m ((c : Thread nD τ).loc main_arg6)) transposes_S768x256_S256x768_1_0 := by
  show StableHlo.after hostOps0 (fun b => m (c, b)) (Proc.devRef .tc main_v5) = _
  after_results
theorem V_v6 (c : Dev nD) : (V m c main_v6 : S256x256.Idx → EReal) = transpose S256x256 [1, 0] (m ((c : Thread nD τ).loc main_arg9)) transposes_S256x256_S256x256_1_0 := by
  show StableHlo.after hostOps0 (fun b => m (c, b)) (Proc.devRef .tc main_v6) = _
  after_results
theorem V_v7 (c : Dev nD) : (V m c main_v7 : S256x64.Idx → EReal) = transpose S256x64 [1, 0] (m ((c : Thread nD τ).loc main_arg11)) transposes_S64x256_S256x64_1_0 := by
  show StableHlo.after hostOps0 (fun b => m (c, b)) (Proc.devRef .tc main_v7) = _
  after_results
theorem V_v8 (c : Dev nD) : (V m c main_v8 : S1x256.Idx → EReal) = shapeCast S1x256 (m ((c : Thread nD τ).loc main_arg4)) shapeCasts_S256_S1x256 := by
  show StableHlo.after hostOps0 (fun b => m (c, b)) (Proc.devRef .tc main_v8) = _
  after_results
  rfl
theorem V_v9 (c : Dev nD) : (V m c main_v9 : S1x768.Idx → EReal) = shapeCast S1x768 (m ((c : Thread nD τ).loc main_arg7)) shapeCasts_S768_S1x768 := by
  show StableHlo.after hostOps0 (fun b => m (c, b)) (Proc.devRef .tc main_v9) = _
  after_results
  rfl
theorem V_v10 (c : Dev nD) : (V m c main_v10 : S1x768.Idx → EReal) = shapeCast S1x768 (m ((c : Thread nD τ).loc main_arg8)) shapeCasts_S768_S1x768 := by
  show StableHlo.after hostOps0 (fun b => m (c, b)) (Proc.devRef .tc main_v10) = _
  after_results
  rfl
theorem V_v11 (c : Dev nD) : (V m c main_v11 : S1x256.Idx → EReal) = shapeCast S1x256 (m ((c : Thread nD τ).loc main_arg10)) shapeCasts_S256_S1x256 := by
  show StableHlo.after hostOps0 (fun b => m (c, b)) (Proc.devRef .tc main_v11) = _
  after_results
  rfl
theorem V_v12 (c : Dev nD) : (V m c main_v12 : S1x64.Idx → EReal) = shapeCast S1x64 (m ((c : Thread nD τ).loc main_arg12)) shapeCasts_S64_S1x64 := by
  show StableHlo.after hostOps0 (fun b => m (c, b)) (Proc.devRef .tc main_v12) = _
  after_results
  rfl
theorem V_v13 (c : Dev nD) : (V m c main_v13 : S131072x256.Idx → EReal) = shapeCast S131072x256 (m ((c : Thread nD τ).loc main_arg2)) shapeCasts_S1x131072x256_S131072x256 := by
  show StableHlo.after hostOps0 (fun b => m (c, b)) (Proc.devRef .tc main_v13) = _
  after_results
  rfl

/-! ## The same, at an index -/

theorem wz_apply (c : Dev nD) (k : Fin 64) (j : Fin 256) : (V m c main_v1 : S64x256.Idx → EReal) (ix2 k j) = (m ((c : Thread nD τ).loc main_arg3)) (ix2 j (latc k)) := by
  rw [V_v1, transpose_ix2_apply]
  exact slice2_axis1_apply 0 _ _ j k (latc k) (by show k.val = 0 + k.val; omega)
theorem wa_apply (c : Dev nD) (k : Fin 2) (j : Fin 256) : (V m c main_v3 : S2x256.Idx → EReal) (ix2 k j) = (m ((c : Thread nD τ).loc main_arg3)) (ix2 j (actc k)) := by
  rw [V_v3, transpose_ix2_apply]
  exact slice2_axis1_apply 64 _ _ j k (actc k) rfl
theorem wih_apply (c : Dev nD) (k : Fin 256) (q : Fin 768) : (V m c main_v4 : S256x768.Idx → EReal) (ix2 k q) = (m ((c : Thread nD τ).loc main_arg5)) (ix2 q k) := by
  rw [V_v4, transpose_ix2_apply]
theorem whh_apply (c : Dev nD) (k : Fin 256) (q : Fin 768) : (V m c main_v5 : S256x768.Idx → EReal) (ix2 k q) = (m ((c : Thread nD τ).loc main_arg6)) (ix2 q k) := by
  rw [V_v5, transpose_ix2_apply]
theorem wo1_apply (c : Dev nD) (k : Fin 256) (j : Fin 256) : (V m c main_v6 : S256x256.Idx → EReal) (ix2 k j) = (m ((c : Thread nD τ).loc main_arg9)) (ix2 j k) := by
  rw [V_v6, transpose_ix2_apply]
theorem wo2_apply (c : Dev nD) (k : Fin 256) (j : Fin 64) : (V m c main_v7 : S256x64.Idx → EReal) (ix2 k j) = (m ((c : Thread nD τ).loc main_arg11)) (ix2 j k) := by
  rw [V_v7, transpose_ix2_apply]
theorem bin_apply (c : Dev nD) (u : Fin 1) (j : Fin 256) : (V m c main_v8 : S1x256.Idx → EReal) (ix2 u j) = (m ((c : Thread nD τ).loc main_arg4)) (ix1 j) := by
  rw [V_v8, shapeCast_a_1a_apply]
theorem bih_apply (c : Dev nD) (u : Fin 1) (q : Fin 768) : (V m c main_v9 : S1x768.Idx → EReal) (ix2 u q) = (m ((c : Thread nD τ).loc main_arg7)) (ix1 q) := by
  rw [V_v9, shapeCast_a_1a_apply]
theorem bhh_apply (c : Dev nD) (u : Fin 1) (q : Fin 768) : (V m c main_v10 : S1x768.Idx → EReal) (ix2 u q) = (m ((c : Thread nD τ).loc main_arg8)) (ix1 q) := by
  rw [V_v10, shapeCast_a_1a_apply]
theorem bo1_apply (c : Dev nD) (u : Fin 1) (j : Fin 256) : (V m c main_v11 : S1x256.Idx → EReal) (ix2 u j) = (m ((c : Thread nD τ).loc main_arg10)) (ix1 j) := by
  rw [V_v11, shapeCast_a_1a_apply]
theorem bo2_apply (c : Dev nD) (u : Fin 1) (j : Fin 64) : (V m c main_v12 : S1x64.Idx → EReal) (ix2 u j) = (m ((c : Thread nD τ).loc main_arg12)) (ix1 j) := by
  rw [V_v12, shapeCast_a_1a_apply]
theorem hid_apply (c : Dev nD) (r : Fin 131072) (k : Fin 256) : (V m c main_v13 : S131072x256.Idx → EReal) (ix2 r k) = (m ((c : Thread nD τ).loc main_arg2)) (ix3 (0 : Fin 1) r k) := by
  rw [V_v13, shapeCast_1ab_ab_apply]

end Cert.KernelIdeal.Host

end
-- ==== Proof.KernelBlocks.lean ====
/-
  From the body's blocks to the program's two results.

  The grid has 128 points. At point t the three batch windows (latent, action, hidden) and the two output windows hold rows
  1024 t … 1024 t + 1023 of their arrays; every weight and bias window holds its whole array at every point. So entry (p, j) of
  what point t writes back is the row-level specification of row 1024 t + p of the batch arguments, which is entry
  (1024 t + p, j) of the specification's whole-array result; row r of an output lies in block r / 1024, so the 128 blocks cover
  both output arrays, and after the last point each output array is the specification's result. The one host operation after
  the region gives the hidden output its leading unit axis back.
-/
import proofs.«169824_j35321811042564_1_alg».proof.Proof.Gen.KernelIdeal.Frame
import proofs.«169824_j35321811042564_1_alg».proof.Proof.Spec
import proofs.«169824_j35321811042564_1_alg».proof.Proof.KernelRows
import proofs.«169824_j35321811042564_1_alg».proof.Proof.KernelHost
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Blocks

open Cert.KernelIdeal Cert.KernelIdeal.Gen Cert.KernelIdeal.Host Cert.KernelIdeal.Rows
open Idealize.ShloMosaic Idealize.ShloMosaic.TcCoe Idealize.ShloMosaic.ValueIdx Idealize.SL.Sem GruStep
open Idealize.ShloMosaic.Pipeline (Dat Cfg Window)
open Idealize.ShloMosaic.StableHlo

variable (m : (ℓ : Loc nD τ sig) → Buf (Elt Ideal) ℓ)
/-! ## The index maps over the grid: the three batch windows and the two outputs take block t at point t; every weight and bias window stays at block (0, 0) -/

theorem hz : (![0, 0] : Fin 2 → Nat) = fun _ => 0 := funext fun a => by fin_cases a <;> rfl

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = 0 ∧ win0_7.index t (1 : Fin 2) = 0 :=
  (by decide +kernel : ∀ t : Fin grid0.N, _)
theorem index8 : ∀ t : Fin cfg0.N, win0_8.index t (0 : Fin 2) = 0 ∧ win0_8.index t (1 : Fin 2) = 0 :=
  (by decide +kernel : ∀ t : Fin grid0.N, _)
theorem index9 : ∀ t : Fin cfg0.N, win0_9.index t (0 : Fin 2) = 0 ∧ win0_9.index t (1 : Fin 2) = 0 :=
  (by decide +kernel : ∀ t : Fin grid0.N, _)
theorem index10 : ∀ t : Fin cfg0.N, win0_10.index t (0 : Fin 2) = 0 ∧ win0_10.index t (1 : Fin 2) = 0 :=
  (by decide +kernel : ∀ t : Fin grid0.N, _)
theorem index11 : ∀ t : Fin cfg0.N, win0_11.index t (0 : Fin 2) = 0 ∧ win0_11.index t (1 : Fin 2) = 0 :=
  (by decide +kernel : ∀ t : Fin grid0.N, _)
theorem index12 : ∀ t : Fin cfg0.N, win0_12.index t (0 : Fin 2) = 0 ∧ win0_12.index t (1 : Fin 2) = 0 :=
  (by decide +kernel : ∀ t : Fin grid0.N, _)
theorem index13 : ∀ t : Fin cfg0.N, win0_13.index t (0 : Fin 2) = 0 ∧ win0_13.index t (1 : Fin 2) = 0 :=
  (by decide +kernel : ∀ t : Fin grid0.N, _)
theorem index14 : ∀ t : Fin cfg0.N, win0_14.index t (0 : Fin 2) = t.val ∧ win0_14.index t (1 : Fin 2) = 0 :=
  (by decide +kernel : ∀ t : Fin grid0.N, _)
theorem index15 : ∀ t : Fin cfg0.N, win0_15.index t (0 : Fin 2) = t.val ∧ win0_15.index t (1 : Fin 2) = 0 :=
  (by decide +kernel : ∀ t : Fin grid0.N, _)

/-- Row p of block t of a batch array is row 1024 t + p of the array. -/
def row (t : Fin cfg0.N) (p : Fin 1024) : Fin 131072 :=
  ⟨t.val * 1024 + p.val, by have h := t.isLt; have hN : cfg0.N = 128 := N_0; have hp := p.isLt; omega⟩
/-! ## Each window's block at a point, read at an entry, as an entry of an argument array -/

theorem blk_z (c : Dev nD) (t : Fin cfg0.N) (p : Fin 1024) (k : Fin 64) : iblk m c 0 t (ix2 p k) = (m ((c.tc : Thread nD τ).loc main_arg0)) (ix2 (row t p) k) := by
  show (V m c main_arg0 : S131072x64.Idx → EReal) (((cfg0.win 0).blk t).view.emb (ix2 p k)) = _
  have e : ((cfg0.win 0).blk t).view.emb (ix2 p k) = ix2 (row t p) k := funext fun a => Fin.ext (by
    match a with
    | ⟨0, _⟩ => show win0_0.index t (0 : Fin 2) * 1024 + 1 * p.val = t.val * 1024 + p.val; rw [(index0 t).1]; omega
    | ⟨1, _⟩ => show win0_0.index t (1 : Fin 2) * 64 + 1 * k.val = k.val; rw [(index0 t).2]; omega)
  rw [e]
  rw [V_main_arg0]
theorem blk_a (c : Dev nD) (t : Fin cfg0.N) (p : Fin 1024) (k : Fin 2) : iblk m c 1 t (ix2 p k) = (m ((c.tc : Thread nD τ).loc main_arg1)) (ix2 (row t p) k) := by
  show (V m c main_arg1 : S131072x2.Idx → EReal) (((cfg0.win 1).blk t).view.emb (ix2 p k)) = _
  have e : ((cfg0.win 1).blk t).view.emb (ix2 p k) = ix2 (row t p) k := funext fun a => Fin.ext (by
    match a with
    | ⟨0, _⟩ => show win0_1.index t (0 : Fin 2) * 1024 + 1 * p.val = t.val * 1024 + p.val; rw [(index1 t).1]; omega
    | ⟨1, _⟩ => show win0_1.index t (1 : Fin 2) * 2 + 1 * k.val = k.val; rw [(index1 t).2]; omega)
  rw [e]
  rw [V_main_arg1]
theorem blk_h (c : Dev nD) (t : Fin cfg0.N) (p : Fin 1024) (k : Fin 256) : iblk m c 2 t (ix2 p k) = (m ((c.tc : Thread nD τ).loc main_arg2)) (ix3 (0 : Fin 1) (row t p) k) := by
  show (V m c main_v13 : S131072x256.Idx → EReal) (((cfg0.win 2).blk t).view.emb (ix2 p k)) = _
  have e : ((cfg0.win 2).blk t).view.emb (ix2 p k) = ix2 (row t p) k := funext fun a => Fin.ext (by
    match a with
    | ⟨0, _⟩ => show win0_2.index t (0 : Fin 2) * 1024 + 1 * p.val = t.val * 1024 + p.val; rw [(index2 t).1]; omega
    | ⟨1, _⟩ => show win0_2.index t (1 : Fin 2) * 256 + 1 * k.val = k.val; rw [(index2 t).2]; omega)
  rw [e]
  exact hid_apply m c (row t p) k
theorem blk_wz (c : Dev nD) (t : Fin cfg0.N) (k : Fin 64) (j : Fin 256) : iblk m c 3 t (ix2 k j) = (m ((c.tc : Thread nD τ).loc main_arg3)) (ix2 j (latc k)) := by
  show (V m c main_v1 : S64x256.Idx → EReal) (((cfg0.win 3).blk t).view.emb (ix2 k j)) = _
  have e : ((cfg0.win 3).blk t).view.emb (ix2 k j) = ix2 k j := funext fun x => Fin.ext (by
    match x with
    | ⟨0, _⟩ => show win0_3.index t (0 : Fin 2) * 64 + 1 * k.val = k.val; rw [(index3 t).1]; omega
    | ⟨1, _⟩ => show win0_3.index t (1 : Fin 2) * 256 + 1 * j.val = j.val; rw [(index3 t).2]; omega)
  rw [e]
  exact wz_apply m c k j
theorem blk_wa (c : Dev nD) (t : Fin cfg0.N) (k : Fin 2) (j : Fin 256) : iblk m c 4 t (ix2 k j) = (m ((c.tc : Thread nD τ).loc main_arg3)) (ix2 j (actc k)) := by
  show (V m c main_v3 : S2x256.Idx → EReal) (((cfg0.win 4).blk t).view.emb (ix2 k j)) = _
  have e : ((cfg0.win 4).blk t).view.emb (ix2 k j) = ix2 k j := funext fun x => Fin.ext (by
    match x with
    | ⟨0, _⟩ => show win0_4.index t (0 : Fin 2) * 2 + 1 * k.val = k.val; rw [(index4 t).1]; omega
    | ⟨1, _⟩ => show win0_4.index t (1 : Fin 2) * 256 + 1 * j.val = j.val; rw [(index4 t).2]; omega)
  rw [e]
  exact wa_apply m c k j
theorem blk_bin (c : Dev nD) (t : Fin cfg0.N) (u : Fin 1) (j : Fin 256) : iblk m c 5 t (ix2 u j) = (m ((c.tc : Thread nD τ).loc main_arg4)) (ix1 j) := by
  show (V m c main_v8 : S1x256.Idx → EReal) (((cfg0.win 5).blk t).view.emb (ix2 u j)) = _
  have e : ((cfg0.win 5).blk t).view.emb (ix2 u j) = ix2 u j := funext fun x => Fin.ext (by
    match x with
    | ⟨0, _⟩ => show win0_5.index t (0 : Fin 2) * 1 + 1 * u.val = u.val; rw [(index5 t).1]; omega
    | ⟨1, _⟩ => show win0_5.index t (1 : Fin 2) * 256 + 1 * j.val = j.val; rw [(index5 t).2]; omega)
  rw [e]
  exact bin_apply m c u j
theorem blk_wih (c : Dev nD) (t : Fin cfg0.N) (k : Fin 256) (q : Fin 768) : iblk m c 6 t (ix2 k q) = (m ((c.tc : Thread nD τ).loc main_arg5)) (ix2 q k) := by
  show (V m c main_v4 : S256x768.Idx → EReal) (((cfg0.win 6).blk t).view.emb (ix2 k q)) = _
  have e : ((cfg0.win 6).blk t).view.emb (ix2 k q) = ix2 k q := funext fun x => Fin.ext (by
    match x with
    | ⟨0, _⟩ => show win0_6.index t (0 : Fin 2) * 256 + 1 * k.val = k.val; rw [(index6 t).1]; omega
    | ⟨1, _⟩ => show win0_6.index t (1 : Fin 2) * 768 + 1 * q.val = q.val; rw [(index6 t).2]; omega)
  rw [e]
  exact wih_apply m c k q
theorem blk_whh (c : Dev nD) (t : Fin cfg0.N) (k : Fin 256) (q : Fin 768) : iblk m c 7 t (ix2 k q) = (m ((c.tc : Thread nD τ).loc main_arg6)) (ix2 q k) := by
  show (V m c main_v5 : S256x768.Idx → EReal) (((cfg0.win 7).blk t).view.emb (ix2 k q)) = _
  have e : ((cfg0.win 7).blk t).view.emb (ix2 k q) = ix2 k q := funext fun x => Fin.ext (by
    match x with
    | ⟨0, _⟩ => show win0_7.index t (0 : Fin 2) * 256 + 1 * k.val = k.val; rw [(index7 t).1]; omega
    | ⟨1, _⟩ => show win0_7.index t (1 : Fin 2) * 768 + 1 * q.val = q.val; rw [(index7 t).2]; omega)
  rw [e]
  exact whh_apply m c k q
theorem blk_bih (c : Dev nD) (t : Fin cfg0.N) (u : Fin 1) (q : Fin 768) : iblk m c 8 t (ix2 u q) = (m ((c.tc : Thread nD τ).loc main_arg7)) (ix1 q) := by
  show (V m c main_v9 : S1x768.Idx → EReal) (((cfg0.win 8).blk t).view.emb (ix2 u q)) = _
  have e : ((cfg0.win 8).blk t).view.emb (ix2 u q) = ix2 u q := funext fun x => Fin.ext (by
    match x with
    | ⟨0, _⟩ => show win0_8.index t (0 : Fin 2) * 1 + 1 * u.val = u.val; rw [(index8 t).1]; omega
    | ⟨1, _⟩ => show win0_8.index t (1 : Fin 2) * 768 + 1 * q.val = q.val; rw [(index8 t).2]; omega)
  rw [e]
  exact bih_apply m c u q
theorem blk_bhh (c : Dev nD) (t : Fin cfg0.N) (u : Fin 1) (q : Fin 768) : iblk m c 9 t (ix2 u q) = (m ((c.tc : Thread nD τ).loc main_arg8)) (ix1 q) := by
  show (V m c main_v10 : S1x768.Idx → EReal) (((cfg0.win 9).blk t).view.emb (ix2 u q)) = _
  have e : ((cfg0.win 9).blk t).view.emb (ix2 u q) = ix2 u q := funext fun x => Fin.ext (by
    match x with
    | ⟨0, _⟩ => show win0_9.index t (0 : Fin 2) * 1 + 1 * u.val = u.val; rw [(index9 t).1]; omega
    | ⟨1, _⟩ => show win0_9.index t (1 : Fin 2) * 768 + 1 * q.val = q.val; rw [(index9 t).2]; omega)
  rw [e]
  exact bhh_apply m c u q
theorem blk_wo1 (c : Dev nD) (t : Fin cfg0.N) (k : Fin 256) (j : Fin 256) : iblk m c 10 t (ix2 k j) = (m ((c.tc : Thread nD τ).loc main_arg9)) (ix2 j k) := by
  show (V m c main_v6 : S256x256.Idx → EReal) (((cfg0.win 10).blk t).view.emb (ix2 k j)) = _
  have e : ((cfg0.win 10).blk t).view.emb (ix2 k j) = ix2 k j := funext fun x => Fin.ext (by
    match x with
    | ⟨0, _⟩ => show win0_10.index t (0 : Fin 2) * 256 + 1 * k.val = k.val; rw [(index10 t).1]; omega
    | ⟨1, _⟩ => show win0_10.index t (1 : Fin 2) * 256 + 1 * j.val = j.val; rw [(index10 t).2]; omega)
  rw [e]
  exact wo1_apply m c k j
theorem blk_bo1 (c : Dev nD) (t : Fin cfg0.N) (u : Fin 1) (j : Fin 256) : iblk m c 11 t (ix2 u j) = (m ((c.tc : Thread nD τ).loc main_arg10)) (ix1 j) := by
  show (V m c main_v11 : S1x256.Idx → EReal) (((cfg0.win 11).blk t).view.emb (ix2 u j)) = _
  have e : ((cfg0.win 11).blk t).view.emb (ix2 u j) = ix2 u j := funext fun x => Fin.ext (by
    match x with
    | ⟨0, _⟩ => show win0_11.index t (0 : Fin 2) * 1 + 1 * u.val = u.val; rw [(index11 t).1]; omega
    | ⟨1, _⟩ => show win0_11.index t (1 : Fin 2) * 256 + 1 * j.val = j.val; rw [(index11 t).2]; omega)
  rw [e]
  exact bo1_apply m c u j
theorem blk_wo2 (c : Dev nD) (t : Fin cfg0.N) (k : Fin 256) (j : Fin 64) : iblk m c 12 t (ix2 k j) = (m ((c.tc : Thread nD τ).loc main_arg11)) (ix2 j k) := by
  show (V m c main_v7 : S256x64.Idx → EReal) (((cfg0.win 12).blk t).view.emb (ix2 k j)) = _
  have e : ((cfg0.win 12).blk t).view.emb (ix2 k j) = ix2 k j := funext fun x => Fin.ext (by
    match x with
    | ⟨0, _⟩ => show win0_12.index t (0 : Fin 2) * 256 + 1 * k.val = k.val; rw [(index12 t).1]; omega
    | ⟨1, _⟩ => show win0_12.index t (1 : Fin 2) * 64 + 1 * j.val = j.val; rw [(index12 t).2]; omega)
  rw [e]
  exact wo2_apply m c k j
theorem blk_bo2 (c : Dev nD) (t : Fin cfg0.N) (u : Fin 1) (j : Fin 64) : iblk m c 13 t (ix2 u j) = (m ((c.tc : Thread nD τ).loc main_arg12)) (ix1 j) := by
  show (V m c main_v12 : S1x64.Idx → EReal) (((cfg0.win 13).blk t).view.emb (ix2 u j)) = _
  have e : ((cfg0.win 13).blk t).view.emb (ix2 u j) = ix2 u j := funext fun x => Fin.ext (by
    match x with
    | ⟨0, _⟩ => show win0_13.index t (0 : Fin 2) * 1 + 1 * u.val = u.val; rw [(index13 t).1]; omega
    | ⟨1, _⟩ => show win0_13.index t (1 : Fin 2) * 64 + 1 * j.val = j.val; rw [(index13 t).2]; omega)
  rw [e]
  exact bo2_apply m c u j
/-! ## What each point writes back, and the arrays after the last point -/

/-- Entry (p, j) of block t of an output array is entry (1024 t + p, j) of the array. -/
theorem emb_latent (t : Fin cfg0.N) (p : Fin 1024) (j : Fin 64) : ((cfg0.win 14).blk t).view.emb (ix2 p j) = ix2 (row t p) j :=
  funext fun a => Fin.ext (by
    match a with
    | ⟨0, _⟩ => show win0_14.index t (0 : Fin 2) * 1024 + 1 * p.val = t.val * 1024 + p.val; rw [(index14 t).1]; omega
    | ⟨1, _⟩ => show win0_14.index t (1 : Fin 2) * 64 + 1 * j.val = j.val; rw [(index14 t).2]; omega)
theorem emb_hidden (t : Fin cfg0.N) (p : Fin 1024) (j : Fin 256) : ((cfg0.win 15).blk t).view.emb (ix2 p j) = ix2 (row t p) j :=
  funext fun a => Fin.ext (by
    match a with
    | ⟨0, _⟩ => show win0_15.index t (0 : Fin 2) * 1024 + 1 * p.val = t.val * 1024 + p.val; rw [(index15 t).1]; omega
    | ⟨1, _⟩ => show win0_15.index t (1 : Fin 2) * 256 + 1 * j.val = j.val; rw [(index15 t).2]; omega)

/-- Point t writes back, to the latent output, block t of the specification's next latent of the argument arrays. -/
theorem flushed_latent (c : Dev nD) (t : Fin cfg0.N) :
    (dats m 0 c).flushed 14 t = ((cfg0.win 14).blk t).view.read (Elt Ideal) (Gz (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) := by
  show (cfg0.win 14).cut (grid0.coords t) ((dats m 0 c).after 14 t) = _
  rw [after0_14]
  unfold out0_14
  rw [View.canon_unit_zero hz]
  simp only [View.ld_unit_zero (S := S1024x64) hz, View.ld_unit_zero (S := S1024x2) hz, View.ld_unit_zero (S := S1024x256) hz, View.ld_unit_zero (S := S64x256) hz, View.ld_unit_zero (S := S2x256) hz, View.ld_unit_zero (S := S1x256) hz, View.ld_unit_zero (S := S256x768) hz, View.ld_unit_zero (S := S1x768) hz, View.ld_unit_zero (S := S256x256) hz, View.ld_unit_zero (S := S256x64) hz, View.ld_unit_zero (S := S1x64) hz]
  funext y
  obtain ⟨p, j, rfl⟩ : ∃ (p : Fin 1024) (j : Fin 64), y = ix2 p j := ⟨y 0, y 1, eq_ix2 y⟩
  show _ = Gz (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (((cfg0.win 14).blk t).view.emb (ix2 p j))
  rw [emb_latent]
  refine (stored_latent_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p j).trans ?_
  simp only [blk_z, blk_a, blk_h, blk_wz, blk_wa, blk_bin, blk_wih, blk_whh, blk_bih, blk_bhh, blk_wo1, blk_bo1, blk_wo2, blk_bo2]
  rfl

/-- Point t writes back, to the hidden output, block t of the specification's new hidden state of the argument arrays. -/
theorem flushed_hidden (c : Dev nD) (t : Fin cfg0.N) :
    (dats m 0 c).flushed 15 t = ((cfg0.win 15).blk t).view.read (Elt Ideal) (Gh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  show (cfg0.win 15).cut (grid0.coords t) ((dats m 0 c).after 15 t) = _
  rw [after0_15]
  unfold out0_15
  rw [View.canon_unit_zero hz]
  simp only [View.ld_unit_zero (S := S1024x64) hz, View.ld_unit_zero (S := S1024x2) hz, View.ld_unit_zero (S := S1024x256) hz, View.ld_unit_zero (S := S64x256) hz, View.ld_unit_zero (S := S2x256) hz, View.ld_unit_zero (S := S1x256) hz, View.ld_unit_zero (S := S256x768) hz, View.ld_unit_zero (S := S1x768) hz, View.ld_unit_zero (S := S256x256) hz, View.ld_unit_zero (S := S256x64) hz, View.ld_unit_zero (S := S1x64) hz]
  funext y
  obtain ⟨p, j, rfl⟩ : ∃ (p : Fin 1024) (j : Fin 256), y = ix2 p j := ⟨y 0, y 1, eq_ix2 y⟩
  show _ = Gh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (((cfg0.win 15).blk t).view.emb (ix2 p j))
  rw [emb_hidden]
  refine (stored_hidden_apply (iblk m c 0 t) (iblk m c 1 t) (iblk m c 2 t) (iblk m c 3 t) (iblk m c 4 t) (iblk m c 5 t) (iblk m c 6 t) (iblk m c 7 t) (iblk m c 8 t) (iblk m c 9 t) p j).trans ?_
  simp only [blk_z, blk_a, blk_h, blk_wz, blk_wa, blk_bin, blk_wih, blk_whh, blk_bih, blk_bhh, blk_wo1, blk_bo1, blk_wo2, blk_bo2]
  rfl
/-! ## The blocks cover the output arrays -/

theorem mem_blk14 (t : Fin cfg0.N) (i : S131072x64.Idx) :
    i ∈ ((cfg0.win 14).blk t).view.set ↔ ∀ a : Fin 2, win0_14.index t a * S1024x64.size a ≤ (i a).val ∧ (i a).val < win0_14.index t a * S1024x64.size a + S1024x64.size a := by
  show i ∈ ((View.whole main_v14_0).slice (win0_14.rect t)).set ↔ _
  rw [View.set_slice_whole, Rect.mem_set_unit]
  exact Iff.rfl

/-- Row r lies in block r / 1024. -/
theorem cover14 (i : S131072x64.Idx) : ∃ t : Fin cfg0.N, (cfg0.win 14).flush t = true ∧ i ∈ ((cfg0.win 14).blk t).view.set := by
  have h0 : (i 0).val < 131072 := idx2_lt0 i
  have h1 : (i 1).val < 64 := idx2_lt1 i
  have hN : cfg0.N = 128 := N_0
  obtain ⟨t, ht⟩ : ∃ t : Fin cfg0.N, t.val = (i 0).val / 1024 := ⟨⟨(i 0).val / 1024, by omega⟩, rfl⟩
  refine ⟨t, flush0_14 t, ?_⟩
  rw [mem_blk14]
  intro a
  match a with
  | ⟨0, _⟩ =>
    show win0_14.index t (0 : Fin 2) * 1024 ≤ (i 0).val ∧ (i 0).val < win0_14.index t (0 : Fin 2) * 1024 + 1024
    rw [(index14 t).1]; omega
  | ⟨1, _⟩ =>
    show win0_14.index t (1 : Fin 2) * 64 ≤ (i 1).val ∧ (i 1).val < win0_14.index t (1 : Fin 2) * 64 + 64
    rw [(index14 t).2]; omega

theorem mem_blk15 (t : Fin cfg0.N) (i : S131072x256.Idx) :
    i ∈ ((cfg0.win 15).blk t).view.set ↔ ∀ a : Fin 2, win0_15.index t a * S1024x256.size a ≤ (i a).val ∧ (i a).val < win0_15.index t a * S1024x256.size a + S1024x256.size a := by
  show i ∈ ((View.whole main_v14_1).slice (win0_15.rect t)).set ↔ _
  rw [View.set_slice_whole, Rect.mem_set_unit]
  exact Iff.rfl

/-- Row r lies in block r / 1024. -/
theorem cover15 (i : S131072x256.Idx) : ∃ t : Fin cfg0.N, (cfg0.win 15).flush t = true ∧ i ∈ ((cfg0.win 15).blk t).view.set := by
  have h0 : (i 0).val < 131072 := idx2_lt0 i
  have h1 : (i 1).val < 256 := idx2_lt1 i
  have hN : cfg0.N = 128 := N_0
  obtain ⟨t, ht⟩ : ∃ t : Fin cfg0.N, t.val = (i 0).val / 1024 := ⟨⟨(i 0).val / 1024, by omega⟩, rfl⟩
  refine ⟨t, flush0_15 t, ?_⟩
  rw [mem_blk15]
  intro a
  match a with
  | ⟨0, _⟩ =>
    show win0_15.index t (0 : Fin 2) * 1024 ≤ (i 0).val ∧ (i 0).val < win0_15.index t (0 : Fin 2) * 1024 + 1024
    rw [(index15 t).1]; omega
  | ⟨1, _⟩ =>
    show win0_15.index t (1 : Fin 2) * 256 ≤ (i 1).val ∧ (i 1).val < win0_15.index t (1 : Fin 2) * 256 + 256
    rw [(index15 t).2]; omega

/-- After the last point the latent output array is the specification's next latent of the argument arrays. -/
theorem final_latent (c : Dev nD) : (dats m 0 c).arrAt 14 cfg0.N = Gz (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (dats m 0 c).arrAt_eq_of_cover 14 (Gz (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (fun t _ => flushed_latent m c t) cover14

/-- After the last point the hidden output array is the specification's new hidden state of the argument arrays. -/
theorem final_hidden (c : Dev nD) : (dats m 0 c).arrAt 15 cfg0.N = Gh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (dats m 0 c).arrAt_eq_of_cover 15 (Gh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (fun t _ => flushed_hidden m c t) cover15

/-- The host operation after the region gives the hidden output its leading unit axis back. -/
theorem tail_hidden (c : Dev nD) :
    Pipeline.afterTail₀ cfgs (dats m) 0 (V0 m) [hostOps1] c main_v15
      = broadcastInDim S1x131072x256 ![1, 2] bcast_S131072x256_S1x131072x256_1_2 (Gh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  unfold Pipeline.afterTail₀
  show StableHlo.after hostOps1 _ (Proc.devRef .tc main_v15) = _
  after_results
  exact congrArg (broadcastInDim S1x131072x256 ![1, 2] bcast_S131072x256_S1x131072x256_1_2)
    ((Pipeline.withArrays_arr spec0 launch0.win.arr_inj c (V0 m c) (fun w => (dats m 0 c).arrAt w (cfgs 0).N) 15).trans (final_hidden m c))

/-! ## The kernel's run, read -/

/-- Every weakly fair execution of the kernel's program ends with its first result at the specification's next latent and
    its second at the specification's new hidden state under a leading unit axis, both of the argument arrays, and the
    argument arrays unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v14_0) = Gz (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v15)
          = broadcastInDim S1x131072x256 ![1, 2] bcast_S131072x256_S1x131072x256_1_2 (Gh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨((h c).1 14).trans (final_latent m c),
      ((h c).2 main_v15 (Pipeline.mem_restRefs_of main_v15 (by decide) (by decide))).trans (tail_hidden m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩) (run_main m ρ)

end Cert.KernelIdeal.Blocks

end
-- ==== Proof.LibSplitSum.lean ====
/-
  A finite sum over a range of K₁ + K₂ positions, split into its first K₁ and its last K₂ positions: if the summand is
  f on the first block (position k) and g on the second (position K₁ + k), the sum is Σ f + Σ g. Stated over any
  additive commutative monoid, so it needs no finiteness of the values and no cancellation; the range is written as
  `Fin K` with `K₁ + K₂ = K` a hypothesis, so that it applies to a literal extent such as 64 = 32 + 32.
-/
import Mathlib.Algebra.BigOperators.Fin

namespace SplitSum

open scoped BigOperators

/-- A sum over `K = K₁ + K₂` positions of a function that is `f` on the first `K₁` positions and `g` on the last `K₂`
    is the sum of `f` plus the sum of `g`. -/
theorem sum_eq_add_of_blocks {M : Type*} [AddCommMonoid M] {K K₁ K₂ : ℕ} (hK : K₁ + K₂ = K)
    (F : Fin K → M) (f : Fin K₁ → M) (g : Fin K₂ → M)
    (hf : ∀ k : Fin K₁, F ⟨k.val, by have := k.isLt; omega⟩ = f k)
    (hg : ∀ k : Fin K₂, F ⟨K₁ + k.val, by have := k.isLt; omega⟩ = g k) :
    ∑ k, F k = ∑ k, f k + ∑ k, g k := by
  subst hK
  rw [Fin.sum_univ_add]
  congr 1
  · exact Finset.sum_congr rfl fun k _ => hf k
  · exact Finset.sum_congr rfl fun k _ => hg k

end SplitSum
-- ==== Proof.LibJoinLayout.lean ====
/-
  Layout facts for a matrix product whose contracted axis is two feature blocks joined side by side, each saying which
  entry of the operand an entry of the result reads. General over the extents.
    • two matrices joined along the columns: entry (r, k) is the first matrix at (r, k) for k below its width, and the
      second at (r, k − width) from there on;
    • a block of columns of a weight matrix, from column o, transposed: entry (k, j) is the matrix at (j, o + k);
    • a vector spread as one row and then down the rows: entry (p, c) is the vector at c;
    • a scalar constant spread over a matrix: every entry is the constant's extended real.
-/
import Idealize.ShloMosaic.Lib.Pipeline.Value
import Idealize.ShloMosaic.Lib.ValueIdx
import Idealize.ShloMosaic.Lib.ValueLayout

namespace JoinLayout

open Idealize.ShloMosaic Idealize.ShloMosaic.ValueIdx

variable {α : Type}

/-- Two matrices joined along the columns read, at `(r, k)` with `k` below the first one's width, the first at `(r, k)`. -/
theorem concatenate_cols_left {M K₁ K₂ K : ℕ} (x : (⟨2, ![M, K₁]⟩ : Shape).Idx → α) (y : (⟨2, ![M, K₂]⟩ : Shape).Idx → α)
    (h : Shape.Concatenates [(⟨2, ![M, K₁]⟩ : Shape), ⟨2, ![M, K₂]⟩] ⟨2, ![M, K]⟩ 1)
    (r : Fin M) (k : Fin K) (k₁ : Fin K₁) (hk : k₁.val = k.val) :
    concatenate ⟨2, ![M, K]⟩ 1 [⟨⟨2, ![M, K₁]⟩, x⟩, ⟨⟨2, ![M, K₂]⟩, y⟩] h (ix2 r k) = x (ix2 r k₁) :=
  concatenate_pair_apply_left 1 x y h (ix2 r k) rfl (ix2 r k₁) fun b => by
    match b with
    | ⟨0, _⟩ => rfl
    | ⟨1, _⟩ => exact hk

/-- Two matrices joined along the columns read, at `(r, k)` with `k` at or past the first one's width, the second at
    `(r, k − width)`. -/
theorem concatenate_cols_right {M K₁ K₂ K : ℕ} (x : (⟨2, ![M, K₁]⟩ : Shape).Idx → α) (y : (⟨2, ![M, K₂]⟩ : Shape).Idx → α)
    (h : Shape.Concatenates [(⟨2, ![M, K₁]⟩ : Shape), ⟨2, ![M, K₂]⟩] ⟨2, ![M, K]⟩ 1)
    (r : Fin M) (k : Fin K) (k₂ : Fin K₂) (hk : k₂.val + K₁ = k.val) :
    concatenate ⟨2, ![M, K]⟩ 1 [⟨⟨2, ![M, K₁]⟩, x⟩, ⟨⟨2, ![M, K₂]⟩, y⟩] h (ix2 r k) = y (ix2 r k₂) :=
  concatenate_pair_apply_right 1 x y h (ix2 r k) rfl rfl (ix2 r k₂)
    (fun b hb => by
      match b, hb with
      | ⟨0, _⟩, _ => rfl
      | ⟨1, _⟩, hb => exact absurd (Fin.ext rfl) hb)
    hk

/-- A block of columns of a matrix, from column `o`, transposed, reads at `(k, j)` the matrix at `(j, o + k)`. -/
theorem transpose_slice_cols_apply {N K K' : ℕ} (o : ℕ) (W : (⟨2, ![N, K]⟩ : Shape).Idx → α)
    (hs : (⟨2, ![N, K]⟩ : Shape).Slices ![0, o] ⟨2, ![N, K']⟩) (ht : (⟨2, ![N, K']⟩ : Shape).Transposes [1, 0] ⟨2, ![K', N]⟩)
    (k : Fin K') (j : Fin N) (k' : Fin K) (hk : k'.val = o + k.val) :
    transpose ⟨2, ![K', N]⟩ [1, 0] (extractStridedSlice ⟨2, ![N, K']⟩ ![0, o] W hs) ht (ix2 k j) = W (ix2 j k') :=
  (transpose_ix2_apply _ ht k j).trans (slice2_axis1_apply o W hs j k k' hk)

/-- A vector `[b]` spread as the row `[1, b]` and then down `a` rows reads, at `(p, c)`, entry `c`. -/
theorem broadcastInDim_row_of_vec_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 x) (ix2 p c) = x (ix1 c) := by
  refine (broadcastInDim_apply _ h2 _ (ix2 p c) (ix2 (0 : Fin 1) c) fun ax => ?_).trans
    (broadcastInDim_apply _ h1 x (ix2 (0 : Fin 1) c) (ix1 c) fun ax => ?_)
  · match ax with
    | ⟨0, _⟩ => rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

/-- A scalar constant spread over any shape reads, at every index, the extended real its word encodes. -/
theorem broadcastInDim_constant_apply {t : Shape} {φ : FTy} (w : BitVec φ.bits)
    (h : (⟨0, ![]⟩ : Shape).BroadcastsInDim t (![] : Fin 0 → Fin t.rank)) (i : t.Idx) :
    broadcastInDim t ![] h (constant (F := Ideal) ⟨0, ![]⟩ φ w) i = Ideal.ofBits φ w := rfl

end JoinLayout
-- ==== Proof.RefRows.lean ====
/-
  The reference's two results, read row by row on the extended reals.

  Each stage of the reference is read at an entry (b, j) — row b of the batch, column j — and identified with the
  row-level function of the specification applied to row b of the batch arrays:
    • the joined input [z | a] contracted against the transposed input weight is the sum over the 64 latent positions
      plus the sum over the 2 action positions (a sum over 66 = 64 + 2 positions split into its two blocks);
    • a dense layer x·Wᵀ + b reads, at (b, q), Σₖ x(b, k) · W(q, k) + b(q);
    • the six column blocks of the two rows of gate pre-activations are their entries 256c + j, and the reference's
      1 / (1 + exp(−x)) is the logistic function once the float word of 1.0 is read as the number one;
    • the new hidden row and the next latent row follow by composing these.
-/
import proofs.«169824_j35321811042564_1_alg».proof.Proof.Gen.ReferenceIdeal.Read
import proofs.«169824_j35321811042564_1_alg».proof.Proof.Spec
import proofs.«169824_j35321811042564_1_alg».proof.Proof.LibSplitSum
import proofs.«169824_j35321811042564_1_alg».proof.Proof.LibJoinLayout

noncomputable section

namespace Cert.ReferenceIdeal.RefValue

open Cert.ReferenceIdeal Cert.ReferenceIdeal.Read Idealize.ShloMosaic Idealize.ShloMosaic.ValueIdx

variable (x0 : (⟨S131072x64, .f32⟩ : BufTy).Contents (Elt Ideal)) (x1 : (⟨S131072x2, .f32⟩ : BufTy).Contents (Elt Ideal))
  (x2 : (⟨S1x131072x256, .f32⟩ : BufTy).Contents (Elt Ideal)) (x3 : (⟨S256x66, .f32⟩ : BufTy).Contents (Elt Ideal))
  (x4 : (⟨S256, .f32⟩ : BufTy).Contents (Elt Ideal)) (x5 x6 : (⟨S768x256, .f32⟩ : BufTy).Contents (Elt Ideal))
  (x7 x8 : (⟨S768, .f32⟩ : BufTy).Contents (Elt Ideal)) (x9 : (⟨S256x256, .f32⟩ : BufTy).Contents (Elt Ideal))
  (x10 : (⟨S256, .f32⟩ : BufTy).Contents (Elt Ideal)) (x11 : (⟨S64x256, .f32⟩ : BufTy).Contents (Elt Ideal))
  (x12 : (⟨S64, .f32⟩ : BufTy).Contents (Elt Ideal))

/-! ## The input projection -/

/-- The joined input [z | a] at (b, k), k one of the first 64 columns, is z(b, k). -/
theorem v0_left (b : Fin 131072) (k : Fin 64) :
    val_main_v0 (F := Ideal) x0 x1 (ix2 b (GruStep.latc k)) = x0 (ix2 b k) := by
  unfold val_main_v0
  exact JoinLayout.concatenate_cols_left x0 x1 _ b (GruStep.latc k) k rfl

/-- The joined input [z | a] at (b, 64 + k) is a(b, k). -/
theorem v0_right (b : Fin 131072) (k : Fin 2) :
    val_main_v0 (F := Ideal) x0 x1 (ix2 b (GruStep.actc k)) = x1 (ix2 b k) := by
  unfold val_main_v0
  exact JoinLayout.concatenate_cols_right x0 x1 _ b (GruStep.actc k) k (Nat.add_comm k.val 64)

/-- The transposed input weight at (k, j) is W_in(j, k). -/
theorem v1_at (k : Fin 66) (j : Fin 256) : val_main_v1 (F := Ideal) x3 (ix2 k j) = x3 (ix2 j k) := by
  rw [val_main_v1_apply]
  exact congrArg x3 (funext fun a => by match a with | ⟨0, _⟩ => rfl | ⟨1, _⟩ => rfl)

/-- Entry (b, j) of [z | a]·W_inᵀ: the sum over the 66 joined positions, split into the 64 latent positions and the
    2 action positions. -/
theorem v2_at (b : Fin 131072) (j : Fin 256) :
    val_main_v2 (F := Ideal) x0 x1 x3 (ix2 b j) =
      (∑ k : Fin 64, x0 (ix2 b k) * x3 (ix2 j (GruStep.latc k))) + ∑ k : Fin 2, x1 (ix2 b k) * x3 (ix2 j (GruStep.actc k)) := by
  rw [val_main_v2_apply]
  have hl : ∀ k : Fin 66, lidx_main_v2 (ix2 b j) k = ix2 b k := fun k => funext fun a => by match a with | ⟨0, _⟩ => rfl | ⟨1, _⟩ => rfl
  have hr : ∀ k : Fin 66, ridx_main_v2 (ix2 b j) k = ix2 k j := fun k => funext fun a => by match a with | ⟨0, _⟩ => rfl | ⟨1, _⟩ => rfl
  refine SplitSum.sum_eq_add_of_blocks (K₁ := 64) (K₂ := 2) rfl _ _ _ (fun k => ?_) (fun k => ?_)
  · show val_main_v0 (F := Ideal) x0 x1 (lidx_main_v2 (ix2 b j) (GruStep.latc k)) *
        val_main_v1 (F := Ideal) x3 (ridx_main_v2 (ix2 b j) (GruStep.latc k)) = x0 (ix2 b k) * x3 (ix2 j (GruStep.latc k))
    rw [hl, hr, v0_left, v1_at]
  · show val_main_v0 (F := Ideal) x0 x1 (lidx_main_v2 (ix2 b j) (GruStep.actc k)) *
        val_main_v1 (F := Ideal) x3 (ridx_main_v2 (ix2 b j) (GruStep.actc k)) = x1 (ix2 b k) * x3 (ix2 j (GruStep.actc k))
    rw [hl, hr, v0_right, v1_at]

/-- The input bias spread over the batch reads, at (b, j), b_in(j). -/
theorem v4_at (b : Fin 131072) (j : Fin 256) : val_main_v4 (F := Ideal) x4 (ix2 b j) = x4 (ix1 j) := by
  rw [val_main_v4_apply, val_main_v3_apply]
  exact congrArg x4 (funext fun a => by match a with | ⟨0, _⟩ => rfl)

/-- Entry (b, j) of the rectified input projection is the specification's input projection of row b. -/
theorem v6_row (b : Fin 131072) (j : Fin 256) :
    val_main_v6 (F := Ideal) x0 x1 x3 x4 (ix2 b j) =
      GruStep.inproj (fun k => x0 (ix2 b k)) (fun k => x1 (ix2 b k)) (fun k j => x3 (ix2 j (GruStep.latc k)))
        (fun k j => x3 (ix2 j (GruStep.actc k))) (fun j => x4 (ix1 j)) j := by
  rw [val_main_v6_apply, val_main_v5_apply, v2_at, v4_at, val_main_call0_v0_apply, val_main_call0_cst_apply]
  rfl

/-! ## The two rows of gate pre-activations -/

/-- The hidden state [1, B, 256] reshaped to [B, 256] reads, at (b, k), the hidden state at (0, b, k): the row-major
    position b · 256 + k has quotient b and remainder k by 256. -/
theorem v7_at (b : Fin 131072) (k : Fin 256) :
    val_main_v7 (F := Ideal) x2 (ix2 b k) = x2 (ix3 (0 : Fin 1) b k) := by
  rw [val_main_v7_apply]
  refine congrArg x2 (funext fun a => ?_)
  match a with
  | ⟨0, _⟩ => rfl
  | ⟨1, _⟩ =>
    refine Fin.ext ?_
    show (b.val * 256 + k.val) / 256 % 131072 = b.val
    have := b.isLt; have := k.isLt; omega
  | ⟨2, _⟩ =>
    refine Fin.ext ?_
    show (b.val * 256 + k.val) % 256 = k.val
    have := k.isLt; omega

/-- The transposed input-gate weight at (k, q) is W_ih(q, k). -/
theorem v8_at (k : Fin 256) (q : Fin 768) : val_main_v8 (F := Ideal) x5 (ix2 k q) = x5 (ix2 q k) := by
  rw [val_main_v8_apply]
  exact congrArg x5 (funext fun a => by match a with | ⟨0, _⟩ => rfl | ⟨1, _⟩ => rfl)

/-- The transposed hidden-gate weight at (k, q) is W_hh(q, k). -/
theorem v13_at (k : Fin 256) (q : Fin 768) : val_main_v13 (F := Ideal) x6 (ix2 k q) = x6 (ix2 q k) := by
  rw [val_main_v13_apply]
  exact congrArg x6 (funext fun a => by match a with | ⟨0, _⟩ => rfl | ⟨1, _⟩ => rfl)

/-- The input-gate bias spread over the batch reads, at (b, q), b_ih(q). -/
theorem v11_at (b : Fin 131072) (q : Fin 768) : val_main_v11 (F := Ideal) x7 (ix2 b q) = x7 (ix1 q) := by
  rw [val_main_v11_apply, val_main_v10_apply]
  exact congrArg x7 (funext fun a => by match a with | ⟨0, _⟩ => rfl)

/-- The hidden-gate bias spread over the batch reads, at (b, q), b_hh(q). -/
theorem v16_at (b : Fin 131072) (q : Fin 768) : val_main_v16 (F := Ideal) x8 (ix2 b q) = x8 (ix1 q) := by
  rw [val_main_v16_apply, val_main_v15_apply]
  exact congrArg x8 (funext fun a => by match a with | ⟨0, _⟩ => rfl)

/-- Entry (b, q) of the input-gate pre-activations is the dense layer on row b of the input projection. -/
theorem v12_row (b : Fin 131072) (q : Fin 768) :
    val_main_v12 (F := Ideal) x0 x1 x3 x4 x5 x7 (ix2 b q) =
      GruStep.lin (fun k => val_main_v6 (F := Ideal) x0 x1 x3 x4 (ix2 b k)) (fun k q => x5 (ix2 q k)) (fun q => x7 (ix1 q)) q := by
  rw [val_main_v12_apply, val_main_v9_apply, v11_at]
  have hl : ∀ k : Fin 256, lidx_main_v9 (ix2 b q) k = ix2 b k := fun k => funext fun a => by match a with | ⟨0, _⟩ => rfl | ⟨1, _⟩ => rfl
  have hr : ∀ k : Fin 256, ridx_main_v9 (ix2 b q) k = ix2 k q := fun k => funext fun a => by match a with | ⟨0, _⟩ => rfl | ⟨1, _⟩ => rfl
  have hs : (∑ k : Fin 256, val_main_v6 (F := Ideal) x0 x1 x3 x4 (lidx_main_v9 (ix2 b q) k) * val_main_v8 (F := Ideal) x5 (ridx_main_v9 (ix2 b q) k))
      = ∑ k : Fin 256, val_main_v6 (F := Ideal) x0 x1 x3 x4 (ix2 b k) * x5 (ix2 q k) :=
    Finset.sum_congr rfl fun k _ => by rw [hl, hr, v8_at]
  rw [hs]
  rfl

/-- Entry (b, q) of the hidden-gate pre-activations is the dense layer on row b of the hidden state. -/
theorem v17_row (b : Fin 131072) (q : Fin 768) :
    val_main_v17 (F := Ideal) x2 x6 x8 (ix2 b q) =
      GruStep.lin (fun k => x2 (ix3 (0 : Fin 1) b k)) (fun k q => x6 (ix2 q k)) (fun q => x8 (ix1 q)) q := by
  rw [val_main_v17_apply, val_main_v14_apply, v16_at]
  have hl : ∀ k : Fin 256, lidx_main_v14 (ix2 b q) k = ix2 b k := fun k => funext fun a => by match a with | ⟨0, _⟩ => rfl | ⟨1, _⟩ => rfl
  have hr : ∀ k : Fin 256, ridx_main_v14 (ix2 b q) k = ix2 k q := fun k => funext fun a => by match a with | ⟨0, _⟩ => rfl | ⟨1, _⟩ => rfl
  have hs : (∑ k : Fin 256, val_main_v7 (F := Ideal) x2 (lidx_main_v14 (ix2 b q) k) * val_main_v13 (F := Ideal) x6 (ridx_main_v14 (ix2 b q) k))
      = ∑ k : Fin 256, x2 (ix3 (0 : Fin 1) b k) * x6 (ix2 q k) :=
    Finset.sum_congr rfl fun k _ => by rw [hl, hr, v7_at, v13_at]
  rw [hs]
  rfl

/-! ## The gates and the new hidden row -/

/-- The reset gate at (b, j): the reference's 1 / (1 + exp(−x)) at x = gi(b, j) + gh(b, j), the first column block of each row of pre-activations, is the logistic function there; the float word of 1.0 is the number one. -/
theorem reset_at (b : Fin 131072) (j : Fin 256) :
    val_main_v30 (F := Ideal) x0 x1 x2 x3 x4 x5 x6 x7 x8 (ix2 b j) =
      GruStep.sigm (val_main_v12 (F := Ideal) x0 x1 x3 x4 x5 x7 (ix2 b (GruStep.col0 j)) +
        val_main_v17 (F := Ideal) x2 x6 x8 (ix2 b (GruStep.col0 j))) := by
  have hi : idx_main_v18 (ix2 b j) = ix2 b (GruStep.col0 j) := funext fun a => by match a with | ⟨0, _⟩ => rfl | ⟨1, _⟩ => rfl
  have hh : idx_main_v21 (ix2 b j) = ix2 b (GruStep.col0 j) := funext fun a => by match a with | ⟨0, _⟩ => rfl | ⟨1, _⟩ => rfl
  have h1 : FloatOps.ofBits (F := Ideal) .f32 0x3F800000#32 = (1 : EReal) := GruStep.one32_eq
  rw [val_main_v30_apply, val_main_v29_apply, val_main_cst_0_apply, val_main_v28_apply, val_main_v27_apply,
    val_main_cst_apply, val_main_v26_apply, val_main_v25_apply, val_main_v24_apply, val_main_v18_apply,
    val_main_v21_apply, hi, hh, h1]
  rfl

/-- The update gate at (b, j): the same at the second column block, x = gi(b, 256 + j) + gh(b, 256 + j). -/
theorem update_at (b : Fin 131072) (j : Fin 256) :
    val_main_v37 (F := Ideal) x0 x1 x2 x3 x4 x5 x6 x7 x8 (ix2 b j) =
      GruStep.sigm (val_main_v12 (F := Ideal) x0 x1 x3 x4 x5 x7 (ix2 b (GruStep.col1 j)) +
        val_main_v17 (F := Ideal) x2 x6 x8 (ix2 b (GruStep.col1 j))) := by
  have hi : idx_main_v19 (ix2 b j) = ix2 b (GruStep.col1 j) := funext fun a => by match a with | ⟨0, _⟩ => rfl | ⟨1, _⟩ => rfl
  have hh : idx_main_v22 (ix2 b j) = ix2 b (GruStep.col1 j) := funext fun a => by match a with | ⟨0, _⟩ => rfl | ⟨1, _⟩ => rfl
  have h1 : FloatOps.ofBits (F := Ideal) .f32 0x3F800000#32 = (1 : EReal) := GruStep.one32_eq
  rw [val_main_v37_apply, val_main_v36_apply, val_main_cst_2_apply, val_main_v35_apply, val_main_v34_apply,
    val_main_cst_1_apply, val_main_v33_apply, val_main_v32_apply, val_main_v31_apply, val_main_v19_apply,
    val_main_v22_apply, hi, hh, h1]
  rfl

/-- Entry (b, j) of the new hidden state is the gated update of hidden row b from rows b of the two pre-activations:
    (1 − u) · tanh(gi₂ + r · gh₂) + u · h, with the third column block at 512 + j. -/
theorem v45_row (b : Fin 131072) (j : Fin 256) :
    val_main_v45 (F := Ideal) x0 x1 x2 x3 x4 x5 x6 x7 x8 (ix2 b j) =
      GruStep.cell (fun q => val_main_v12 (F := Ideal) x0 x1 x3 x4 x5 x7 (ix2 b q))
        (fun q => val_main_v17 (F := Ideal) x2 x6 x8 (ix2 b q)) (fun j => x2 (ix3 (0 : Fin 1) b j)) j := by
  have hi : idx_main_v20 (ix2 b j) = ix2 b (GruStep.col2 j) := funext fun a => by match a with | ⟨0, _⟩ => rfl | ⟨1, _⟩ => rfl
  have hh : idx_main_v23 (ix2 b j) = ix2 b (GruStep.col2 j) := funext fun a => by match a with | ⟨0, _⟩ => rfl | ⟨1, _⟩ => rfl
  rw [val_main_v45_apply, val_main_v43_apply, val_main_v44_apply, val_main_v42_apply, val_main_v41_apply, val_main_cst_3_apply,
    val_main_v40_apply, val_main_v39_apply, val_main_v38_apply, update_at, reset_at, val_main_v20_apply, val_main_v23_apply,
    hi, hh, v7_at]
  rfl

/-! ## The output projection -/

/-- The transposed first output weight at (k, j) is W_o1(j, k). -/
theorem v46_at (k j : Fin 256) : val_main_v46 (F := Ideal) x9 (ix2 k j) = x9 (ix2 j k) := by
  rw [val_main_v46_apply]
  exact congrArg x9 (funext fun a => by match a with | ⟨0, _⟩ => rfl | ⟨1, _⟩ => rfl)

/-- The transposed second output weight at (k, j) is W_o2(j, k). -/
theorem v52_at (k : Fin 256) (j : Fin 64) : val_main_v52 (F := Ideal) x11 (ix2 k j) = x11 (ix2 j k) := by
  rw [val_main_v52_apply]
  exact congrArg x11 (funext fun a => by match a with | ⟨0, _⟩ => rfl | ⟨1, _⟩ => rfl)

/-- The first output bias spread over the batch reads, at (b, j), b_o1(j). -/
theorem v49_at (b : Fin 131072) (j : Fin 256) : val_main_v49 (F := Ideal) x10 (ix2 b j) = x10 (ix1 j) := by
  rw [val_main_v49_apply, val_main_v48_apply]
  exact congrArg x10 (funext fun a => by match a with | ⟨0, _⟩ => rfl)

/-- The second output bias spread over the batch reads, at (b, j), b_o2(j). -/
theorem v55_at (b : Fin 131072) (j : Fin 64) : val_main_v55 (F := Ideal) x12 (ix2 b j) = x12 (ix1 j) := by
  rw [val_main_v55_apply, val_main_v54_apply]
  exact congrArg x12 (funext fun a => by match a with | ⟨0, _⟩ => rfl)

/-- Entry (b, j) of the rectified first output layer is the rectifier of the dense layer on row b of the new hidden state. -/
theorem v51_row (b : Fin 131072) (j : Fin 256) :
    val_main_v51 (F := Ideal) x0 x1 x2 x3 x4 x5 x6 x7 x8 x9 x10 (ix2 b j) =
      GruStep.relu (GruStep.lin (fun k => val_main_v45 (F := Ideal) x0 x1 x2 x3 x4 x5 x6 x7 x8 (ix2 b k))
        (fun k j => x9 (ix2 j k)) (fun j => x10 (ix1 j))) j := by
  rw [val_main_v51_apply, val_main_v50_apply, val_main_v47_apply, v49_at, val_main_call1_v0_apply, val_main_call1_cst_apply]
  have hl : ∀ k : Fin 256, lidx_main_v47 (ix2 b j) k = ix2 b k := fun k => funext fun a => by match a with | ⟨0, _⟩ => rfl | ⟨1, _⟩ => rfl
  have hr : ∀ k : Fin 256, ridx_main_v47 (ix2 b j) k = ix2 k j := fun k => funext fun a => by match a with | ⟨0, _⟩ => rfl | ⟨1, _⟩ => rfl
  have hs : (∑ k : Fin 256, val_main_v45 (F := Ideal) x0 x1 x2 x3 x4 x5 x6 x7 x8 (lidx_main_v47 (ix2 b j) k) * val_main_v46 (F := Ideal) x9 (ridx_main_v47 (ix2 b j) k))
      = ∑ k : Fin 256, val_main_v45 (F := Ideal) x0 x1 x2 x3 x4 x5 x6 x7 x8 (ix2 b k) * x9 (ix2 j k) :=
    Finset.sum_congr rfl fun k _ => by rw [hl, hr, v46_at]
  rw [hs]
  rfl

/-- Entry (b, j) of the next latent is the dense layer on row b of the rectified first output layer. -/
theorem v56_row (b : Fin 131072) (j : Fin 64) :
    val_main_v56 (F := Ideal) x0 x1 x2 x3 x4 x5 x6 x7 x8 x9 x10 x11 x12 (ix2 b j) =
      GruStep.lin (fun k => val_main_v51 (F := Ideal) x0 x1 x2 x3 x4 x5 x6 x7 x8 x9 x10 (ix2 b k))
        (fun k j => x11 (ix2 j k)) (fun j => x12 (ix1 j)) j := by
  rw [val_main_v56_apply, val_main_v53_apply, v55_at]
  have hl : ∀ k : Fin 256, lidx_main_v53 (ix2 b j) k = ix2 b k := fun k => funext fun a => by match a with | ⟨0, _⟩ => rfl | ⟨1, _⟩ => rfl
  have hr : ∀ k : Fin 256, ridx_main_v53 (ix2 b j) k = ix2 k j := fun k => funext fun a => by match a with | ⟨0, _⟩ => rfl | ⟨1, _⟩ => rfl
  have hs : (∑ k : Fin 256, val_main_v51 (F := Ideal) x0 x1 x2 x3 x4 x5 x6 x7 x8 x9 x10 (lidx_main_v53 (ix2 b j) k) * val_main_v52 (F := Ideal) x11 (ridx_main_v53 (ix2 b j) k))
      = ∑ k : Fin 256, val_main_v51 (F := Ideal) x0 x1 x2 x3 x4 x5 x6 x7 x8 x9 x10 (ix2 b k) * x11 (ix2 j k) :=
    Finset.sum_congr rfl fun k _ => by rw [hl, hr, v52_at]
  rw [hs]
  rfl

/-! ## The two results -/

/-- Row b of the reference's new hidden state is the specification's new hidden row of row b of the batch arrays. -/
theorem hidden_row (b : Fin 131072) :
    (fun j : Fin 256 => val_main_v45 (F := Ideal) x0 x1 x2 x3 x4 x5 x6 x7 x8 (ix2 b j)) =
      GruStep.hnew (fun k => x0 (ix2 b k)) (fun k => x1 (ix2 b k)) (fun k => x2 (ix3 (0 : Fin 1) b k))
        (fun k j => x3 (ix2 j (GruStep.latc k))) (fun k j => x3 (ix2 j (GruStep.actc k))) (fun j => x4 (ix1 j))
        (fun k q => x5 (ix2 q k)) (fun q => x7 (ix1 q)) (fun k q => x6 (ix2 q k)) (fun q => x8 (ix1 q)) := by
  have h6 : (fun k : Fin 256 => val_main_v6 (F := Ideal) x0 x1 x3 x4 (ix2 b k)) =
      GruStep.inproj (fun k => x0 (ix2 b k)) (fun k => x1 (ix2 b k)) (fun k j => x3 (ix2 j (GruStep.latc k)))
        (fun k j => x3 (ix2 j (GruStep.actc k))) (fun j => x4 (ix1 j)) := funext fun k => v6_row x0 x1 x3 x4 b k
  have h12 : (fun q : Fin 768 => val_main_v12 (F := Ideal) x0 x1 x3 x4 x5 x7 (ix2 b q)) =
      GruStep.lin (GruStep.inproj (fun k => x0 (ix2 b k)) (fun k => x1 (ix2 b k)) (fun k j => x3 (ix2 j (GruStep.latc k)))
        (fun k j => x3 (ix2 j (GruStep.actc k))) (fun j => x4 (ix1 j))) (fun k q => x5 (ix2 q k)) (fun q => x7 (ix1 q)) :=
    funext fun q => by rw [v12_row, h6]
  have h17 : (fun q : Fin 768 => val_main_v17 (F := Ideal) x2 x6 x8 (ix2 b q)) =
      GruStep.lin (fun k => x2 (ix3 (0 : Fin 1) b k)) (fun k q => x6 (ix2 q k)) (fun q => x8 (ix1 q)) :=
    funext fun q => v17_row x2 x6 x8 b q
  funext j
  rw [v45_row, h12, h17]
  rfl

/-- The reference's new hidden state, before its final broadcast to [1, B, 256], is the specification's. -/
theorem hidden_eq : val_main_v45 (F := Ideal) x0 x1 x2 x3 x4 x5 x6 x7 x8 = GruStep.Gh x0 x1 x2 x3 x4 x5 x6 x7 x8 := by
  funext i
  obtain ⟨b, j, rfl⟩ : ∃ (b : Fin 131072) (j : Fin 256), i = ix2 b j := ⟨i 0, i 1, eq_ix2 i⟩
  exact congrFun (hidden_row x0 x1 x2 x3 x4 x5 x6 x7 x8 b) j

/-- The reference's next latent is the specification's. -/
theorem latent_eq : val_main_v56 (F := Ideal) x0 x1 x2 x3 x4 x5 x6 x7 x8 x9 x10 x11 x12 = GruStep.Gz x0 x1 x2 x3 x4 x5 x6 x7 x8 x9 x10 x11 x12 := by
  funext i
  obtain ⟨b, j, rfl⟩ : ∃ (b : Fin 131072) (j : Fin 64), i = ix2 b j := ⟨i 0, i 1, eq_ix2 i⟩
  have h51 : (fun k : Fin 256 => val_main_v51 (F := Ideal) x0 x1 x2 x3 x4 x5 x6 x7 x8 x9 x10 (ix2 b k)) =
      GruStep.relu (GruStep.lin (GruStep.hnew (fun k => x0 (ix2 b k)) (fun k => x1 (ix2 b k)) (fun k => x2 (ix3 (0 : Fin 1) b k))
        (fun k j => x3 (ix2 j (GruStep.latc k))) (fun k j => x3 (ix2 j (GruStep.actc k))) (fun j => x4 (ix1 j))
        (fun k q => x5 (ix2 q k)) (fun q => x7 (ix1 q)) (fun k q => x6 (ix2 q k)) (fun q => x8 (ix1 q))) (fun k j => x9 (ix2 j k)) (fun j => x10 (ix1 j))) :=
    funext fun k => by rw [v51_row, hidden_row]
  rw [v56_row, h51]
  rfl

end Cert.ReferenceIdeal.RefValue

end
-- ==== Proof.lean ====
/-
  One step of a gated recurrent cell between two dense layers: the kernel against its reference, on the extended reals.

  Both programs compute, for each of the 131072 rows independently,
    x  = max([z | a]·W_inᵀ + b_in, 0),   gi = x·W_ihᵀ + b_ih,   gh = h·W_hhᵀ + b_hh,
    r  = σ(gi₀ + gh₀),  u = σ(gi₁ + gh₁),  n = tanh(gi₂ + r·gh₂),   h' = (1 − u)·n + u·h,
    z' = max(h'·W_o1ᵀ + b_o1, 0)·W_o2ᵀ + b_o2,
  and return z' and h' (the latter under a leading unit axis). They differ in arrangement only:
    • the reference joins z and a into one 66-column matrix and contracts it against W_inᵀ, where the kernel multiplies z by the
      first 64 columns of W_in and a by the last 2 and adds the two products: a sum over 66 = 64 + 2 positions split into its
      two blocks, which needs only that addition of extended reals is commutative and associative — no finiteness;
    • the reference spells the logistic function 1 / (1 + exp(−x)) where the kernel has one operation for it: on the extended
      reals these are one function, once the float word of 1.0 is read as the number one;
    • the kernel narrows the operands of each product to a shorter float format, which is the identity on the extended reals;
    • the kernel works on blocks of 1024 rows, with the weights transposed and the biases recast as one-row matrices beforehand.
  Both results are therefore the same functions of the thirteen arguments (the specification, `GruStep.Gz` and `GruStep.Gh`):
  the kernel's by reading what each grid point writes back and that the blocks cover the outputs, the reference's by reading
  its operations one at a time. The precondition is not used. The sanctioned idealization of the kernel changed nothing, so
  there is nothing to preserve.
-/
import proofs.«169824_j35321811042564_1_alg».proof.Defs
import proofs.«169824_j35321811042564_1_alg».proof.Proof.Gen.Kernel
import proofs.«169824_j35321811042564_1_alg».proof.Proof.Gen.Kernel.Skeleton
import proofs.«169824_j35321811042564_1_alg».proof.Proof.Gen.Kernel.Launch
import proofs.«169824_j35321811042564_1_alg».proof.Proof.Gen.Kernel.Points
import proofs.«169824_j35321811042564_1_alg».proof.Proof.Gen.Kernel.Frame
import proofs.«169824_j35321811042564_1_alg».proof.Proof.Gen.KernelIdeal
import proofs.«169824_j35321811042564_1_alg».proof.Proof.Gen.KernelIdeal.Skeleton
import proofs.«169824_j35321811042564_1_alg».proof.Proof.Gen.KernelIdeal.Launch
import proofs.«169824_j35321811042564_1_alg».proof.Proof.Gen.KernelIdeal.Points
import proofs.«169824_j35321811042564_1_alg».proof.Proof.Gen.KernelIdeal.Frame
import proofs.«169824_j35321811042564_1_alg».proof.Proof.Gen.ReferenceIdeal
import proofs.«169824_j35321811042564_1_alg».proof.Proof.Gen.Pre_finite_inputs
import proofs.«169824_j35321811042564_1_alg».proof.Proof.Gen.ReferenceIdeal.Run
import proofs.«169824_j35321811042564_1_alg».proof.Proof.Gen.ReferenceIdeal.Read
import proofs.«169824_j35321811042564_1_alg».proof.Proof.KernelBlocks
import proofs.«169824_j35321811042564_1_alg».proof.Proof.RefRows
import Idealize.ShloMosaic.Adequacy
import Idealize.ShloMosaic.Init

noncomputable section

namespace Cert.Proof

open Idealize.ShloMosaic Idealize.SL.Sem Cert.Kernel

/-- The three programs terminate without a fault and leave their arguments unchanged. -/
theorem frame_kernel [Cert.Kernel.Facts] [Cert.Pre_finite_inputs.Facts] : Cert.frame_Kernel := fun m ρ _ => Cert.Kernel.Gen.frame m ρ
theorem frame_kernel_ideal [Cert.KernelIdeal.Facts] [Cert.Pre_finite_inputs.Facts] : Cert.frame_KernelIdeal :=
  fun m ρ _ => Cert.KernelIdeal.Gen.frame m ρ
theorem frame_reference_ideal [Cert.ReferenceIdeal.Facts] [Cert.Pre_finite_inputs.Facts] : Cert.frame_ReferenceIdeal := fun m ρ _ =>
  (θ_run Cert.ReferenceIdeal.defs _ _).mono (fun _ h c => (h c).2.2) (Cert.ReferenceIdeal.Value.run (F := Ideal) m ρ)

/-- From memories that agree on the thirteen arguments, both programs end with the specification's next latent and new
    hidden state of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12⟩ := hagree c
  refine ⟨(h c).1.trans ?_, (h c).2.1.trans ?_, (h c).2.2⟩
  · rw [Cert.ReferenceIdeal.Read.val_main_v56_eq, Cert.ReferenceIdeal.RefValue.latent_eq, a0, a1, a2, a3, a4, a5, a6, a7, a8, a9, a10, a11, a12]
  · rw [Cert.ReferenceIdeal.Read.val_main_v57_eq]
    unfold Cert.ReferenceIdeal.Read.val_main_v57
    rw [Cert.ReferenceIdeal.RefValue.hidden_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
